-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x576x1024 : Shape := ⟨3, ![16, 576, 1024]⟩
abbrev S16x448x1024 : Shape := ⟨3, ![16, 448, 1024]⟩
abbrev S1024x1024 : Shape := ⟨2, ![1024, 1024]⟩
abbrev S1024 : Shape := ⟨1, ![1024]⟩
abbrev S_ : Shape := ⟨0, ![]⟩

class Facts : Prop where
  bcast_S_S16x576x1024 : S_.BroadcastsInDim S16x576x1024 (![] : Fin 0 → Fin S16x576x1024.rank)
  reducesTo_S16x576x1024_S_d0_1_2 : S16x576x1024.ReducesTo [0, 1, 2] S_
  h_S_ : 0 < S_.numel
  bcast_S_S16x448x1024 : S_.BroadcastsInDim S16x448x1024 (![] : Fin 0 → Fin S16x448x1024.rank)
  reducesTo_S16x448x1024_S_d0_1_2 : S16x448x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x576x1024 .f32) (main_arg1 : FVec F S16x448x1024 .f32) (main_arg2 : FVec F S1024x1024 .f32) (main_arg3 : FVec F S1024x1024 .f32) (main_arg4 : FVec F S1024x1024 .f32) (main_arg5 : FVec F S1024 .f32) : IVec S_ 1 :=
  let main_v0 : FVec F S16x576x1024 .f32 := Host.absf main_arg0
  let main_cst : FVec F S_ .f32 := constant S_ .f32 0x7F800000#32
  let main_v1 : FVec F S16x576x1024 .f32 := broadcastInDim S16x576x1024 ![] bcast_S_S16x576x1024 main_cst
  let main_v2 : IVec S16x576x1024 1 := cmpf .olt main_v0 main_v1
  let main_c : IVec S_ 1 := constantI S_ 1 1#1
  let main_v3 : IVec S_ 1 := (fun x v => Host.reduce IntOp.andi x v reducesTo_S16x576x1024_S_d0_1_2 h_S_) main_v2 main_c
  let main_v4 : FVec F S16x448x1024 .f32 := Host.absf main_arg1
  let main_cst_0 : FVec F S_ .f32 := constant S_ .f32 0x7F800000#32
  let main_v5 : FVec F S16x448x1024 .f32 := broadcastInDim S16x448x1024 ![] bcast_S_S16x448x1024 main_cst_0
  let main_v6 : IVec S16x448x1024 1 := cmpf .olt main_v4 main_v5
  let main_c_1 : IVec S_ 1 := constantI S_ 1 1#1
  let main_v7 : IVec S_ 1 := (fun x v => Host.reduce IntOp.andi x v reducesTo_S16x448x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S16x576x1024 : Shape := ⟨3, ![16, 576, 1024]⟩
abbrev S16x448x1024 : Shape := ⟨3, ![16, 448, 1024]⟩
abbrev S1024x1024 : Shape := ⟨2, ![1024, 1024]⟩
abbrev S1024 : Shape := ⟨1, ![1024]⟩
abbrev S1x1024 : Shape := ⟨2, ![1, 1024]⟩
abbrev S16x1024x1024 : Shape := ⟨3, ![16, 1024, 1024]⟩
abbrev S1x576x1024 : Shape := ⟨3, ![1, 576, 1024]⟩
abbrev S1x448x1024 : Shape := ⟨3, ![1, 448, 1024]⟩
abbrev S1x1024x1024 : Shape := ⟨3, ![1, 1024, 1024]⟩
abbrev S576x1024 : Shape := ⟨2, ![576, 1024]⟩
abbrev S448x1024 : Shape := ⟨2, ![448, 1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S16x576x1024, .f32⟩
  | .hbm, ⟨1, _⟩ => ⟨S16x448x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S16x576x1024, .bf16⟩
  | .hbm, ⟨7, _⟩ => ⟨S16x448x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S16x1024x1024, .f32⟩
  | .local _ .vmem, ⟨0, _⟩ => ⟨S1x576x1024, .bf16⟩
  | .local _ .vmem, ⟨1, _⟩ => ⟨S1x576x1024, .bf16⟩
  | .local _ .vmem, ⟨2, _⟩ => ⟨S1x448x1024, .bf16⟩
  | .local _ .vmem, ⟨3, _⟩ => ⟨S1x448x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | .local _ .vmem, ⟨11, _⟩ => ⟨S1024x1024, .f32⟩
  | _, _ => ⟨S16x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x448x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1x576x1024_S1x576x1024_0_0_0 : ∀ a, (![0, 0, 0] : Fin 3 → Nat) a + S1x576x1024.size a ≤ S1x576x1024.size a
  h_S1x576x1024 : 0 < S1x576x1024.numel
  shapeCasts_S1x576x1024_S576x1024 : S1x576x1024.ShapeCasts S576x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1024_S576x1024_0_0 : ∀ a, (![0, 0] : Fin 2 → Nat) a + S576x1024.size a ≤ S1024x1024.size a
  h_S576x1024 : 0 < S576x1024.numel
  shapeCasts_S576x1024_S576x1024 : S576x1024.ShapeCasts S576x1024
  packedbf16_S1024x1024_S576x1024_0_0 : (Rect.unit (s := S1024x1024) ![0, 0] S576x1024.size inb_S1024x1024_S576x1024_0_0).PackedRows (EltTy.packing .bf16)
  inb_S1x448x1024_S1x448x1024_0_0_0 : ∀ a, (![0, 0, 0] : Fin 3 → Nat) a + S1x448x1024.size a ≤ S1x448x1024.size a
  h_S1x448x1024 : 0 < S1x448x1024.numel
  shapeCasts_S1x448x1024_S448x1024 : S1x448x1024.ShapeCasts S448x1024
  inb_S1024x1024_S448x1024_576_0 : ∀ a, (![576, 0] : Fin 2 → Nat) a + S448x1024.size a ≤ S1024x1024.size a
  h_S448x1024 : 0 < S448x1024.numel
  shapeCasts_S448x1024_S448x1024 : S448x1024.ShapeCasts S448x1024
  packedbf16_S1024x1024_S448x1024_576_0 : (Rect.unit (s := S1024x1024) ![576, 0] S448x1024.size inb_S1024x1024_S448x1024_576_0).PackedRows (EltTy.packing .bf16)
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S576x1024_S1024x1024_S576x1024_1_0_0_1_n_n_wf : DotDims.WF S576x1024 S1024x1024 S576x1024 [1] [0] [0] [1] [] []
  dot_S448x1024_S1024x1024_S448x1024_1_0_0_1_n_n_wf : DotDims.WF S448x1024 S1024x1024 S448x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x1024.size a ≤ S16x576x1024.size a
  hwx0_0 : ∀ i : grid0.Coords, EltTy.bits .bf16 = 32 ∨ (Rect.block (s := S16x576x1024) S1x576x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x448x1024.size a ≤ S16x448x1024.size a
  hwx0_1 : ∀ i : grid0.Coords, EltTy.bits .bf16 = 32 ∨ (Rect.block (s := S16x448x1024) S1x448x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S16x1024x1024.size a
  hwx0_6 : ∀ i : grid0.Coords, EltTy.bits .f32 = 32 ∨ (Rect.block (s := S16x1024x1024) S1x1024x1024.size (cc0_transform_6 i) (hinb0_6 i)).WholeWords (EltTy.packing .f32)

variable [Facts₀]

def dot_S576x1024_S1024x1024_S576x1024_1_0_0_1_n_n : DotDims S576x1024 S1024x1024 S576x1024 where
  lhsContracting := [1]
  rhsContracting := [0]
  lhsNonContracting := [0]
  rhsNonContracting := [1]
  lhsBatch := []
  rhsBatch := []
  wf := dot_S576x1024_S1024x1024_S576x1024_1_0_0_1_n_n_wf
def dot_S448x1024_S1024x1024_S448x1024_1_0_0_1_n_n : DotDims S448x1024 S1024x1024 S448x1024 where
  lhsContracting := [1]
  rhsContracting := [0]
  lhsNonContracting := [0]
  rhsNonContracting := [1]
  lhsBatch := []
  rhsBatch := []
  wf := dot_S448x1024_S1024x1024_S448x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x576x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x448x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x576x1024 : Shape := ⟨3, ![16, 576, 1024]⟩
abbrev S16x448x1024 : Shape := ⟨3, ![16, 448, 1024]⟩
abbrev S1024x1024 : Shape := ⟨2, ![1024, 1024]⟩
abbrev S1024 : Shape := ⟨1, ![1024]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x576x1024, .f32⟩
  | .hbm, ⟨1, _⟩ => ⟨S16x448x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S16x576x1024, .f32⟩
  | .hbm, ⟨7, _⟩ => ⟨S16x448x1024, .f32⟩
  | .hbm, ⟨8, _⟩ => ⟨S16x1024x1024, .f32⟩
  | .hbm, ⟨9, _⟩ => ⟨S16x1024x1024, .f32⟩
  | .hbm, ⟨10, _⟩ => ⟨S_, .f32⟩
  | .hbm, ⟨11, _⟩ => ⟨S16x1024x1024, .f32⟩
  | .hbm, ⟨12, _⟩ => ⟨S16x1024x1024, .f32⟩
  | .hbm, ⟨13, _⟩ => ⟨S_, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | .hbm, ⟨22, _⟩ => ⟨S_, .f32⟩
  | .hbm, ⟨23, _⟩ => ⟨S16x1024, .f32⟩
  | .hbm, ⟨24, _⟩ => ⟨S16x1024x1, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S1x1x1024, .f32⟩
  | .hbm, ⟨30, _⟩ => ⟨S16x1024x1024, .f32⟩
  | .hbm, ⟨31, _⟩ => ⟨S16x1024x1024, .f32⟩
  | _, _ => ⟨S16x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  concatenates_S16x576x1024_S16x448x1024_S16x1024x1024_d1 : Shape.Concatenates [S16x576x1024, S16x448x1024] S16x1024x1024 1
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x576x1024_S1024x1024_S16x576x1024_2_1_01_0_n_n_wf : DotDims.WF S16x576x1024 S1024x1024 S16x576x1024 [2] [1] [0, 1] [0] [] []
  dot_S16x448x1024_S1024x1024_S16x448x1024_2_1_01_0_n_n_wf : DotDims.WF S16x448x1024 S1024x1024 S16x448x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]
  dot_S16x1024x1024_S1024x1024_S16x1024x1024_2_1_01_0_n_n_wf : DotDims.WF S16x1024x1024 S1024x1024 S16x1024x1024 [2] [1] [0, 1] [0] [] []

variable [Facts₀]

def dot_S16x576x1024_S1024x1024_S16x576x1024_2_1_01_0_n_n : DotDims S16x576x1024 S1024x1024 S16x576x1024 where
  lhsContracting := [2]
  rhsContracting := [1]
  lhsNonContracting := [0, 1]
  rhsNonContracting := [0]
  lhsBatch := []
  rhsBatch := []
  wf := dot_S16x576x1024_S1024x1024_S16x576x1024_2_1_01_0_n_n_wf
def dot_S16x448x1024_S1024x1024_S16x448x1024_2_1_01_0_n_n : DotDims S16x448x1024 S1024x1024 S16x448x1024 where
  lhsContracting := [2]
  rhsContracting := [1]
  lhsNonContracting := [0, 1]
  rhsNonContracting := [0]
  lhsBatch := []
  rhsBatch := []
  wf := dot_S16x448x1024_S1024x1024_S16x448x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf
def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf

class Facts : Prop extends Facts₀ where

variable [Facts]
-- ==== Proof.KBlock.lean ====
/-
  What one grid point writes back, as one term of the blocks it is given.

  The body keeps two buffers between its steps. Into the first it writes the projected vision tokens (rows 0–575) and the
  projected language tokens (rows 576–1023), and reads the whole buffer back: the token matrix. Into the second it writes
  the scores (the token matrix against itself), reads them back for the row maxima and for the weights, writes the weights
  over the scores and reads those back for the row sums and for the weighted sum of the tokens. The block written back is
  the last step's value of what was read back: the weights (twice), the token matrix, the output weights and the bias.
-/
import proofs.«133942_j32298154065925_2_alg».proof.Proof.Gen.KernelIdeal.Frame
import Idealize.ShloMosaic.Lib.Pipeline.Value

set_option maxRecDepth 16384

noncomputable section

namespace Cert.KernelIdeal.Blk

open Cert.KernelIdeal Cert.KernelIdeal.Gen
open Idealize.ShloMosaic Idealize.ShloMosaic.TcCoe Idealize.ShloMosaic.Tactic
open Idealize.SL Idealize.SL.Sem

variable {F : FTy → Type} [FloatOps F]

theorem off2 : (![0, 0] : Fin S1024x1024.rank → ℕ) = fun _ => 0 := by
  funext a; match a with | ⟨0, _⟩ => rfl | ⟨1, _⟩ => rfl

/-- The token matrix: the projected vision rows above the projected language rows, as the two stores leave them. -/
def tokens (w3 : FVec F S576x1024 .bf16) (w4 : FVec F S448x1024 .bf16) : Vec F S1024x1024 .bf16 :=
  View.canon [(⟨Rect.unit (s := S1024x1024) ![576, 0] S448x1024.size inb_S1024x1024_S448x1024_576_0, w4⟩ : View.Piece (Elt F) S1024x1024 .bf16),
    ⟨Rect.unit (s := S1024x1024) ![0, 0] S576x1024.size inb_S1024x1024_S576x1024_0_0, w3⟩]

/-- Every row of the buffer lies in one of the two stores: a row below 576 in the vision store, any other in the language store. -/
theorem tokens_cover (w3 : FVec F S576x1024 .bf16) (w4 : FVec F S448x1024 .bf16) (y : S1024x1024.Idx) :
    ∃ p ∈ [(⟨Rect.unit (s := S1024x1024) ![576, 0] S448x1024.size inb_S1024x1024_S448x1024_576_0, w4⟩ : View.Piece (Elt F) S1024x1024 .bf16),
        ⟨Rect.unit (s := S1024x1024) ![0, 0] S576x1024.size inb_S1024x1024_S576x1024_0_0, w3⟩], y ∈ p.1.set := by
  have h0 : (y 0).val < 1024 := (y 0).isLt
  have h1 : (y 1).val < 1024 := (y 1).isLt
  by_cases h : (y 0).val < 576
  · refine ⟨_, List.mem_cons_of_mem _ List.mem_cons_self, ?_⟩
    show y ∈ (Rect.unit (s := S1024x1024) ![0, 0] S576x1024.size inb_S1024x1024_S576x1024_0_0).set
    rw [Rect.mem_set_unit]
    intro a
    match a with
    | ⟨0, _⟩ => exact ⟨Nat.zero_le _, by show (y 0).val < 0 + 576; omega⟩
    | ⟨1, _⟩ => exact ⟨Nat.zero_le _, by show (y 1).val < 0 + 1024; omega⟩
  · refine ⟨_, List.mem_cons_self, ?_⟩
    show y ∈ (Rect.unit (s := S1024x1024) ![576, 0] S448x1024.size inb_S1024x1024_S448x1024_576_0).set
    rw [Rect.mem_set_unit]
    intro a
    match a with
    | ⟨0, _⟩ => exact ⟨by show 576 ≤ (y 0).val; omega, by show (y 0).val < 576 + 448; omega⟩
    | ⟨1, _⟩ => exact ⟨Nat.zero_le _, by show (y 1).val < 0 + 1024; omega⟩

/-- A read of the whole buffer after the two row stores is the token matrix. -/
theorem readCov_tokens (v : View sig .tc .vmem S1024x1024 .bf16) (w3 : FVec F S576x1024 .bf16) (w4 : FVec F S448x1024 .bf16) :
    v.readCov [(⟨Rect.unit (s := S1024x1024) ![576, 0] S448x1024.size inb_S1024x1024_S448x1024_576_0, w4⟩ : View.Piece (Elt F) S1024x1024 .bf16),
        ⟨Rect.unit (s := S1024x1024) ![0, 0] S576x1024.size inb_S1024x1024_S576x1024_0_0, w3⟩]
      (Rect.unit (s := S1024x1024) ![0, 0] S1024x1024.size inb_S1024x1024_S1024x1024_0_0).toLoadRect = tokens w3 w4 := by
  rw [View.readCov_eq_canon_ld _ _ _ (tokens_cover w3 w4), View.ld_unit_zero off2]
  rfl

/-- A read of a whole buffer after a store of the whole buffer, whatever was stored before, is what was stored. -/
theorem readCov_whole {S : Shape} {e : EltTy} {κ : Kind} {sp : Space} (v : View sig κ sp S e) {off : Fin S.rank → ℕ}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem off3 : (![0, 0, 0] : Fin 3 → ℕ) = fun _ => 0 := by
  funext a; match a with | ⟨0, _⟩ => rfl | ⟨1, _⟩ => rfl | ⟨2, _⟩ => rfl

/-- The scores: the token matrix against itself. -/
def scores (X : Vec F S1024x1024 .bf16) : FVec F S1024x1024 .f32 := k0_pay5 X X

/-- The weights: each score's distance below its row's largest, scaled and exponentiated. -/
def weights (S : Vec F S1024x1024 .f32) : FVec F S1024x1024 .f32 := k0_pay1 (k0_pay6 S) S

/-- What one grid point writes back, of the six blocks it is given. -/
def block (x0 : Vec F S1x576x1024 .bf16) (x1 : Vec F S1x448x1024 .bf16) (x2 x3 x4 : Vec F S1024x1024 .bf16) (x5 : Vec F S1x1024 .f32) :
    Vec F S1x1024x1024 .f32 :=
  k0_pay2 (weights (scores (tokens (k0_pay3 x0 x2) (k0_pay4 x1 x3)))) (weights (scores (tokens (k0_pay3 x0 x2) (k0_pay4 x1 x3))))
    (tokens (k0_pay3 x0 x2) (k0_pay4 x1 x3)) x4 x5

/-- The one store of the output block, read back, is that term: every intermediate read of a buffer is a read of the whole
    buffer after stores that cover it. -/
theorem out_eq_block (c : Dev nD) (i : grid0.Coords) (arg1 : Memref sig .tc .vmem S1x576x1024 .bf16) (harg1 : arg1.IsWhole) (arg2 : Memref sig .tc .vmem S1x448x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x1024 .bf16) (harg8 : arg8.IsWhole) (arg9 : Memref sig .tc .vmem S1024x1024 .f32) (harg9 : arg9.IsWhole) (x0 : Vec F S1x576x1024 .bf16) (x1 : Vec F S1x448x1024 .bf16) (x2 : Vec F S1024x1024 .bf16) (x3 : Vec F S1024x1024 .bf16) (x4 : Vec F S1024x1024 .bf16) (x5 : Vec F S1x1024 .f32) :
    out0_A_6 c i arg1 harg1 arg2 harg2 arg3 harg3 arg4 harg4 arg5 harg5 arg6 harg6 arg7 harg7 arg8 harg8 arg9 harg9 x0 x1 x2 x3 x4 x5 = block x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero (S := S1x1024x1024) off3]
  simp only [View.readAt_eq_ld, harg1.read_unread, harg2.read_unread, harg3.read_unread, harg4.read_unread, harg5.read_unread,
    harg6.read_unread, View.ld_unit_zero (S := S1x576x1024) off3, View.ld_unit_zero (S := S1x448x1024) off3,
    View.ld_unit_zero (S := S1024x1024) off2, View.ld_unit_zero (S := S1x1024) off2]
  rw [readCov_tokens]
  repeat rw [readCov_whole (F := F) (S := S1024x1024) (e := .f32) arg9.view off2]
  rfl

end Cert.KernelIdeal.Blk

end
-- ==== Proof.KTokens.lean ====
/-
  The token matrix read at a row: rows 0–575 are the projected vision tokens, rows 576–1023 the projected language tokens.

  The matrix is what two stores leave: first the vision rows at row offset 0, then the language rows at row offset 576. A row
  from 576 on lies in the later store's rectangle and reads that store's value; a row below 576 lies outside it and reads
  what the earlier store left there.
-/
import proofs.«133942_j32298154065925_2_alg».proof.Proof.KBlock
import Idealize.ShloMosaic.Lib.ValueIdx

set_option maxRecDepth 16384

noncomputable section

namespace Cert.KernelIdeal.Blk

open Cert.KernelIdeal Cert.KernelIdeal.Gen
open Idealize.ShloMosaic Idealize.ShloMosaic.ValueIdx

variable {F : FTy → Type} [FloatOps F]

/-- Row `576 + s` of the token matrix is row `s` of the language store. -/
theorem tokens_high (w3 : FVec F S576x1024 .bf16) (w4 : FVec F S448x1024 .bf16) (s : Fin 448) (e : Fin 1024) :
    tokens w3 w4 (ix2 (⟨576 + s.val, by have := s.isLt; omega⟩ : Fin 1024) e) = w4 (ix2 s e) := by
  unfold tokens
  have hi : ix2 (⟨576 + s.val, by have := s.isLt; omega⟩ : Fin 1024) e
      = (Rect.unit (s := S1024x1024) ![576, 0] S448x1024.size inb_S1024x1024_S448x1024_576_0).emb (ix2 s e) :=
    funext fun a => Fin.ext (by
      match a with
      | ⟨0, _⟩ => show 576 + s.val = 576 + 1 * s.val; omega
      | ⟨1, _⟩ => show e.val = 0 + 1 * e.val; omega)
  rw [hi]
  exact View.canon_cons_emb _ _ _ _

/-- Row `s < 576` of the token matrix is row `s` of the vision store. -/
theorem tokens_low (w3 : FVec F S576x1024 .bf16) (w4 : FVec F S448x1024 .bf16) (s : Fin 576) (e : Fin 1024) :
    tokens w3 w4 (ix2 (⟨s.val, by have := s.isLt; omega⟩ : Fin 1024) e) = w3 (ix2 s e) := by
  unfold tokens
  have hs := s.isLt
  have hout : ix2 (⟨s.val, by omega⟩ : Fin 1024) e
      ∉ (Rect.unit (s := S1024x1024) ![576, 0] S448x1024.size inb_S1024x1024_S448x1024_576_0).set := by
    rw [Rect.mem_set_unit]
    intro h
    have h0 := (h (⟨0, by decide⟩ : Fin S1024x1024.rank)).1
    have h0' : 576 ≤ s.val := h0
    omega
  rw [View.canon_cons, Rect.overlay_of_not_mem _ _ _ hout]
  have hi : ix2 (⟨s.val, by omega⟩ : Fin 1024) e
      = (Rect.unit (s := S1024x1024) ![0, 0] S576x1024.size inb_S1024x1024_S576x1024_0_0).emb (ix2 s e) :=
    funext fun a => Fin.ext (by
      match a with
      | ⟨0, _⟩ => show s.val = 0 + 1 * s.val; omega
      | ⟨1, _⟩ => show e.val = 0 + 1 * e.val; omega)
  rw [hi]
  exact View.canon_cons_emb _ _ _ _

/-- The token matrix at row `s`: a vision row below 576, a language row from there on. -/
theorem tokens_apply (w3 : FVec F S576x1024 .bf16) (w4 : FVec F S448x1024 .bf16) (s e : Fin 1024) :
    tokens w3 w4 (ix2 s e)
      = if h : s.val < 576 then w3 (ix2 (⟨s.val, h⟩ : Fin 576) e)
        else w4 (ix2 (⟨s.val - 576, by have := s.isLt; omega⟩ : Fin 448) e) := by
  have hs := s.isLt
  split
  · next h => exact tokens_low w3 w4 ⟨s.val, h⟩ e
  · next h =>
    have e1 : s = (⟨576 + (s.val - 576), by omega⟩ : Fin 1024) := Fin.ext (by show s.val = 576 + (s.val - 576); omega)
    have := tokens_high w3 w4 (⟨s.val - 576, by omega⟩ : Fin 448) e
    rw [← e1] at this
    exact this

end Cert.KernelIdeal.Blk

end
-- ==== Proof.KPayDots.lean ====
/-
  The kernel body's three matrix products, read at an index over the extended reals.

  Over the extended reals the matrix unit's product into a zero accumulator is the plain sum of products over the
  contracted axis, and narrowing the result's format changes nothing. So each of the three products, read at `(p, c)`, is
  one finite sum: for the two products that contract the left operand's second axis against the right operand's first,
  `∑ⱼ lhs (p, j) · rhs (j, c)`; for the one that contracts the second axes of both, `∑ⱼ lhs (p, j) · rhs (c, j)`. The left
  operand of the first two is a `1 × a × 1024` block viewed as `a × 1024`: entry `(p, j)` of the view is entry `(0, p, j)` of
  the block, both at row-major position `p · 1024 + j`. A recast to the same shape is the identity.

  The two general lemmas are stated for any extents and for any dimension-number record equal to the standard one (the
  records differ from it only in the proof of well-formedness they carry).
-/
import proofs.«133942_j32298154065925_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## A block with a leading unit axis, viewed without it -/

/-- A `1 × a × b` array recast as `a × b` reads, at `(p, c)`, the entry `(0, p, c)`: both have row-major position `p · b + c`. -/
theorem shapeCast_1ab_ab_apply {α : Type} {a b : ℕ} (x : (⟨3, ![1, a, b]⟩ : Shape).Idx → α)
    (h : (⟨3, ![1, a, b]⟩ : Shape).ShapeCasts ⟨2, ![a, b]⟩) (p : Fin a) (c : Fin b) :
    shapeCast ⟨2, ![a, b]⟩ x h (ix2 p c) = x (ix3 (0 : Fin 1) p c) := by
  refine shapeCast_apply x h (ix2 p c) (ix3 (0 : Fin 1) p c) ?_
  rw [Shape.rowMajor_val_three, Shape.rowMajor_val_two]
  show (0 * a + p.val) * b + c.val = p.val * b + c.val
  rw [Nat.zero_mul, Nat.zero_add]

/-! ## The product of an `M × K` matrix with a `K × N` matrix, at an index -/

section Plain
variable (M K N : ℕ)

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

end Plain

/-- Into a zero accumulator, the matrix unit's product with the left operand's second axis contracted against the right
    operand's first reads, at `(p, c)`, `∑ⱼ lhs (p, j) · rhs (j, c)`. The dimension numbers may carry any proof of their
    well-formedness. -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c) = ∑ j : Fin K, lhs (ix2 p j) * rhs (ix2 j c) := by
  subst hD
  simp only [matmul]
  rw [Ideal.matmul_constant_zero_apply, ← Equiv.sum_comp (contrEquiv1 (DotDims.plain M K N) K rfl rfl).symm]
  refine Finset.sum_congr rfl fun j _ => ?_
  have hj := contrEquiv1_symm_val (DotDims.plain M K N) K rfl rfl j
  have el : (DotDims.plain M K N).lhsIdx (ix2 p c) ((contrEquiv1 (DotDims.plain M K N) K rfl rfl).symm j) = ix2 p j :=
    funext fun a => Fin.ext (by
      match a with
      | ⟨0, _⟩ => exact plain_lhs_0 M K N _ _
      | ⟨1, _⟩ => exact (plain_lhs_1 M K N _ _).trans hj)
  have er : (DotDims.plain M K N).rhsIdx (ix2 p c) ((contrEquiv1 (DotDims.plain M K N) K rfl rfl).symm j) = ix2 j c :=
    funext fun a => Fin.ext (by
      match a with
      | ⟨0, _⟩ => exact (plain_rhs_0 M K N _ _).trans hj
      | ⟨1, _⟩ => exact plain_rhs_1 M K N _ _)
  rw [el, er]

/-! ## The product of an `M × K` matrix with the transpose of an `N × K` matrix, at an index -/

section TransposedRhs
variable (M K N : ℕ)

theorem nt_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

theorem nt_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem nt_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

theorem nt_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

end TransposedRhs

/-- Into a zero accumulator, the matrix unit's product with the second axes of both operands contracted reads, at
    `(p, c)`, `∑ⱼ lhs (p, j) · rhs (c, j)`. The dimension numbers may carry any proof of their well-formedness. -/
theorem matmul_transposedRhs_apply {M K N : ℕ} {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (c : Fin N) :
    matmul D prec lhs rhs (constant ⟨2, ![M, N]⟩ .f32 0x00000000#32) (ix2 p c) = ∑ j : Fin K, lhs (ix2 p j) * rhs (ix2 c j) := by
  subst hD
  simp only [matmul]
  rw [Ideal.matmul_constant_zero_apply, ← Equiv.sum_comp (contrEquiv1 (DotDims.transposedRhs M K N) K rfl rfl).symm]
  refine Finset.sum_congr rfl fun j _ => ?_
  have hj := contrEquiv1_symm_val (DotDims.transposedRhs M K N) K rfl rfl j
  have el : (DotDims.transposedRhs M K N).lhsIdx (ix2 p c) ((contrEquiv1 (DotDims.transposedRhs M K N) K rfl rfl).symm j) = ix2 p j :=
    funext fun a => Fin.ext (by
      match a with
      | ⟨0, _⟩ => exact nt_lhs_0 M K N _ _
      | ⟨1, _⟩ => exact (nt_lhs_1 M K N _ _).trans hj)
  have er : (DotDims.transposedRhs M K N).rhsIdx (ix2 p c) ((contrEquiv1 (DotDims.transposedRhs M K N) K rfl rfl).symm j) = ix2 c j :=
    funext fun a => Fin.ext (by
      match a with
      | ⟨0, _⟩ => exact nt_rhs_0 M K N _ _
      | ⟨1, _⟩ => exact (nt_rhs_1 M K N _ _).trans hj)
  rw [el, er]

/-! ## The three products of the kernel body -/

/-- The first product: the `1 × 576 × 1024` block, its leading unit axis dropped, times the `1024 × 1024` block. -/
theorem pay3_apply (v0 : Vec Ideal S1x576x1024 .bf16) (v2 : Vec Ideal S1024x1024 .bf16) (s : Fin 576) (e : Fin 1024) :
    k0_pay3 (F := Ideal) v0 v2 (ix2 s e) = ∑ j : Fin 1024, v0 (ix3 (0 : Fin 1) s j) * v2 (ix2 j e) := by
  unfold k0_pay3
  refine (congrFun (shapeCast_self _ _) _).trans ?_
  refine (truncf_apply (ψ := .bf16) _ bitsLt_bf16_f32 (ix2 s e)).trans ?_
  refine (matmul_plain_apply dot_S576x1024_S1024x1024_S576x1024_1_0_0_1_n_n rfl none _ _ s e).trans ?_
  refine Finset.sum_congr rfl fun j _ => ?_
  rw [shapeCast_1ab_ab_apply, shapeCast_self]

/-- The second product: the `1 × 448 × 1024` block, its leading unit axis dropped, times the `1024 × 1024` block. -/
theorem pay4_apply (v9 : Vec Ideal S1x448x1024 .bf16) (v11 : Vec Ideal S1024x1024 .bf16) (s : Fin 448) (e : Fin 1024) :
    k0_pay4 (F := Ideal) v9 v11 (ix2 s e) = ∑ j : Fin 1024, v9 (ix3 (0 : Fin 1) s j) * v11 (ix2 j e) := by
  unfold k0_pay4
  refine (congrFun (shapeCast_self _ _) _).trans ?_
  refine (truncf_apply (ψ := .bf16) _ bitsLt_bf16_f32 (ix2 s e)).trans ?_
  refine (matmul_plain_apply dot_S448x1024_S1024x1024_S448x1024_1_0_0_1_n_n rfl none _ _ s e).trans ?_
  refine Finset.sum_congr rfl fun j _ => ?_
  rw [shapeCast_1ab_ab_apply, shapeCast_self]

/-- The third product: row `q` of the left block against row `k` of the right block, the dot product of the two rows. -/
theorem pay5_apply (v18 v19 : Vec Ideal S1024x1024 .bf16) (q k : Fin 1024) :
    k0_pay5 (F := Ideal) v18 v19 (ix2 q k) = ∑ e : Fin 1024, v18 (ix2 q e) * v19 (ix2 k e) := by
  unfold k0_pay5
  refine (congrFun (shapeCast_self _ _) _).trans ?_
  exact matmul_transposedRhs_apply dot_S1024x1024_S1024x1024_S1024x1024_1_1_0_0_n_n rfl none v18 v19 q k

end Cert.KernelIdeal.Pay

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.KPaySoftmax.lean ====
/-
  Three values the kernel's body computes, read at an index over the extended reals.

  The column of row maxima: entry (q, 0) is the fold of max, from the accumulator's value, over row q of the scores.
  The weights: entry (q, k) is the exponential of (score (q, k) - the column's entry q) times the scale word.
  The output block: entry (0, q, f) is the sum over e of
  ((the sum over k of weight (q, k) * token (k, e)) * (the one word divided by the sum of row q of the weights)) * Wo (e, f),
  plus the bias row's entry f.

  Each is read by pushing the index through the pointwise operations and through one small equation per layout operation,
  row reduction and matrix product.
-/
import proofs.«133942_j32298154065925_2_alg».proof.Proof.Gen.KernelIdeal.Skeleton
import proofs.«133942_j32298154065925_2_alg».proof.Proof.LibColumns
import proofs.«133942_j32298154065925_2_alg».proof.Proof.LibRowMax
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The column of row maxima at (q, z): the fold of max from the accumulator's value over row q. -/
theorem pay6_apply (v24 : Vec Ideal S1024x1024 .f32) (q : Fin 1024) (z : Fin 1) :
    k0_pay6 (F := Ideal) v24 (ix2 q z)
      = (Finset.univ : Finset (Fin 1024)).fold max (Ideal.ofBits .f32 0xFF800000#32) (fun k => v24 (ix2 q k)) := by
  unfold k0_pay6
  refine (Cert.LibColumns.shapeCast_a_a1_apply (a := 1024) _ shapeCasts_S1024_S1024x1 q z).trans ?_
  exact Cert.LibRowMax.rowMax_apply (n := 1024) (m := 1024) (φ := .f32) v24 0xFF800000#32 reduces_S1024x1024_S1024 _ _ q

/-- The weights at (q, k): the exponential of the score's distance from the column's entry q, times the scale word. -/
theorem pay1_apply (v26 : FVec Ideal S1024x1 .f32) (v27 : Vec Ideal S1024x1024 .f32) (q k : Fin 1024) :
    k0_pay1 (F := Ideal) v26 v27 (ix2 q k)
      = Ideal.exp ((v27 (ix2 q k) - v26 (ix2 q (0 : Fin 1))) * Ideal.ofBits .f32 0x3D000000#32) := by
  unfold k0_pay1
  refine (congrFun (shapeCast_self (s := S1024x1024) _ shapeCasts_S1024x1024_S1024x1024) (ix2 q k)).trans ?_
  refine congrArg (fun t : EReal => Ideal.exp ((v27 (ix2 q k) - t) * Ideal.ofBits .f32 0x3D000000#32)) ?_
  exact Cert.LibColumns.broadcastTo_a1_ab_apply (a := 1024) (b := 1024) v26 broadcasts_S1024x1_S1024x1024 q k

/-- The left operand's index of the product at (i, contraction index c): row i 0 … -/
theorem lhs_row (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … column the contraction coordinate. -/
theorem lhs_col (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
/-- The right operand's index: row the contraction coordinate … -/
theorem rhs_row (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
/-- … column i 1. -/
theorem rhs_col (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A 1024 × 1024 matrix product into the zero accumulator, at (q, f): the sum over k of lhs (q, k) * rhs (k, f). -/
theorem matmul_ix2 {φ₁ φ₂ : FTy} (lhs : FVec Ideal S1024x1024 φ₁) (rhs : FVec Ideal S1024x1024 φ₂) (q f : Fin 1024) :
    matmul dot_S1024x1024_S1024x1024_S1024x1024_1_0_0_1_n_n none lhs rhs (constant (F := Ideal) S1024x1024 .f32 0x00000000#32) (ix2 q f)
      = ∑ k : Fin 1024, lhs (ix2 q k) * rhs (ix2 k f) := by
  refine (Ideal.matmul_constant_zero_apply dot_S1024x1024_S1024x1024_S1024x1024_1_0_0_1_n_n none lhs rhs (ix2 q f)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 q f) ((ValueIdx.contrEquiv1 dot_S1024x1024_S1024x1024_S1024x1024_1_0_0_1_n_n 1024 rfl rfl).symm k) = ix2 q k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 q f) ((ValueIdx.contrEquiv1 dot_S1024x1024_S1024x1024_S1024x1024_1_0_0_1_n_n 1024 rfl rfl).symm k) = ix2 k f :=
    funext fun a => Fin.ext (by
      match a with
      | ⟨0, _⟩ => exact (rhs_row _ _).trans hk
      | ⟨1, _⟩ => exact rhs_col _ _)
  rw [el, er]

/-- The column of row sums at (q, z): the sum of row q. -/
theorem rowSumCol_apply (v36 : Vec Ideal S1024x1024 .f32) (hφ : FKind.Formats .f32)
    (hacc : (0x00000000#32 : BitVec 32) = FKind.add.neutral .f32 hφ) (q : Fin 1024) (z : Fin 1) :
    shapeCast S1024x1 (multiReduction (F := Ideal) .add [1] S1024 v36 0x00000000#32 reduces_S1024x1024_S1024 hφ hacc)
        shapeCasts_S1024_S1024x1 (ix2 q z)
      = ∑ k : Fin 1024, v36 (ix2 q k) :=
  (Cert.LibColumns.shapeCast_a_a1_apply (a := 1024) _ shapeCasts_S1024_S1024x1 q z).trans
    (Cert.LibColumns.rowSum_apply (n := 1024) (m := 1024) (φ := .f32) v36 0x00000000#32 reduces_S1024x1024_S1024 hφ hacc q)

/-- The output block at (0, q, f): the attended row of query q, each coordinate the weighted sum of the tokens times the one
    word divided by the sum of the weights, times the output projection's column f, plus the bias row's entry f. -/
theorem pay2_apply (v36 v39 : Vec Ideal S1024x1024 .f32) (v41 v48 : Vec Ideal S1024x1024 .bf16) (v51 : Vec Ideal S1x1024 .f32) (q f : Fin 1024) :
    k0_pay2 (F := Ideal) v36 v39 v41 v48 v51 (ix3 (0 : Fin 1) q f)
      = (∑ e : Fin 1024, ((∑ k : Fin 1024, v39 (ix2 q k) * v41 (ix2 k e))
            * Ideal.div (Ideal.ofBits .f32 0x3F800000#32) (∑ k : Fin 1024, v36 (ix2 q k))) * v48 (ix2 e f))
        + v51 (ix2 (0 : Fin 1) f) := by
  unfold k0_pay2
  refine (shapeCast_ab_1ab_apply (a := 1024) (b := 1024) _ shapeCasts_S1024x1024_S1x1024x1024 (0 : Fin 1) q f).trans ?_
  refine (addf_apply (s := S1024x1024) (φ := .f32) _ _ (ix2 q f)).trans ?_
  refine congrArg₂ (fun a b : EReal => a + b) ?_ ?_
  · -- the second product, at (q, f)
    refine (matmul_ix2 (φ₁ := .bf16) (φ₂ := .bf16) _ _ q f).trans ?_
    refine Finset.sum_congr rfl fun e _ => ?_
    refine congrArg₂ (fun a b : EReal => a * b) ?_ ?_
    · -- the attended row at (q, e): the first product times the reciprocal column
      refine (truncf_apply (s := S1024x1024) (φ := .f32) (ψ := .bf16) _ bitsLt_bf16_f32 (ix2 q e)).trans ?_
      refine (mulf_apply (s := S1024x1024) (φ := .f32) _ _ (ix2 q e)).trans ?_
      refine congrArg₂ (fun a b : EReal => a * b) ?_ ?_
      · refine (matmul_ix2 (φ₁ := .bf16) (φ₂ := .bf16) _ _ q e).trans ?_
        refine Finset.sum_congr rfl fun k _ => ?_
        refine congrArg₂ (fun a b : EReal => a * b) ?_ rfl
        exact truncf_apply (s := S1024x1024) (φ := .f32) (ψ := .bf16) v39 bitsLt_bf16_f32 (ix2 q k)
      · refine (Cert.LibColumns.broadcastTo_a1_ab_apply (a := 1024) (b := 1024) _ broadcasts_S1024x1_S1024x1024 q e).trans ?_
        refine (divf_apply (s := S1024x1) (φ := .f32) _ _ (ix2 q (0 : Fin 1))).trans ?_
        refine congrArg₂ (fun a b : EReal => Ideal.div a b) rfl ?_
        exact rowSumCol_apply v36 _ _ q (0 : Fin 1)
    · exact congrFun (shapeCast_self (s := S1024x1024) v48 shapeCasts_S1024x1024_S1024x1024) (ix2 e f)
  · -- the bias row spread over the rows, at (q, f)
    refine (broadcastTo_1b_ab_apply (a := 1024) (b := 1024) _ broadcasts_S1x1024_S1024x1024 q f).trans ?_
    exact congrFun (shapeCast_self (s := S1x1024) v51 shapeCasts_S1x1024_S1x1024) (ix2 (0 : Fin 1) f)

end Cert.KernelIdeal.Pay

end
-- ==== Proof.Spec.lean ====
/-
  Single-head attention over a sequence of projected tokens, as one function of the argument arrays.

  A batch element's 1024 tokens are 576 vision tokens and 448 language tokens, each projected by its own weight matrix: token
  `s` of the sequence is row `s` of `vision · Wvᵀ` when `s < 576` and row `s - 576` of `language · Wlᵀ` otherwise. The score of
  query `q` against key `k` is the dot product of their rows. Query `q`'s weights are the exponentials of its scores, shifted by
  the row's largest score and scaled by `c`; the attended row is the weighted sum of the tokens divided by the sum of the
  weights; the result is the attended row times `Woᵀ` plus the bias.

  Two orders of the same arithmetic are written down. In the first the shift by the largest score comes before the scaling
  and the division by the sum of the weights after the weighted sum; in the second the scores are scaled first and every
  weight is divided before the weighted sum. On real scores the two agree (for a positive scale the largest scaled score is
  the scaled largest score, and a common factor moves across a finite sum of reals).
-/
import Idealize.ShloMosaic.Lib.ValueIdx
import Idealize.ShloMosaic.PureOps.Ideal

noncomputable section

open scoped BigOperators

namespace Cert.Attn

open Idealize.ShloMosaic Idealize.ShloMosaic.ValueIdx

variable {n d : ℕ}

/-- The score of query row `q` against key row `k`: the dot product of the two rows. -/
def score (X : Fin n → Fin d → EReal) (q k : Fin n) : EReal := ∑ e : Fin d, X q e * X k e

/-- The largest score of row `q`, folded from `lo`. -/
def rowMax (lo : EReal) (X : Fin n → Fin d → EReal) (q : Fin n) : EReal :=
  (Finset.univ : Finset (Fin n)).fold max lo (fun k => score X q k)

/-- Query `q`'s weight on key `k`: the exponential of the score's distance below the row's largest, scaled by `c`. -/
def weight (lo c : EReal) (X : Fin n → Fin d → EReal) (q k : Fin n) : EReal :=
  Ideal.exp ((score X q k - rowMax lo X q) * c)

/-- The attended row: the weighted sum of the tokens, then divided by the sum of the weights. -/
def attend (lo c one : EReal) (X : Fin n → Fin d → EReal) (q : Fin n) (e : Fin d) : EReal :=
  (∑ k : Fin n, weight lo c X q k * X k e) * Ideal.div one (∑ k : Fin n, weight lo c X q k)

/-- The largest SCALED score of row `q`, folded from `lo` and once more compared with `lo`. -/
def rowMaxScaled (lo c : EReal) (X : Fin n → Fin d → EReal) (q : Fin n) : EReal :=
  max lo ((Finset.univ : Finset (Fin n)).fold max lo (fun k => score X q k * c))

/-- The weight in the other order: the scaled score less the largest scaled score, exponentiated. -/
def weightScaled (lo c : EReal) (X : Fin n → Fin d → EReal) (q k : Fin n) : EReal :=
  Ideal.exp (score X q k * c - rowMaxScaled lo c X q)

/-- The attended row in the other order: every weight divided by the sum of the weights before the weighted sum. -/
def attendScaled (lo c : EReal) (X : Fin n → Fin d → EReal) (q : Fin n) (e : Fin d) : EReal :=
  ∑ k : Fin n, Ideal.div (weightScaled lo c X q k) (∑ k' : Fin n, weightScaled lo c X q k') * X k e

/-- Token `s` of batch element `b`'s sequence: a projected vision token below 576, a projected language token from there on. -/
def token (vis : (⟨3, ![16, 576, 1024]⟩ : Shape).Idx → EReal) (lang : (⟨3, ![16, 448, 1024]⟩ : Shape).Idx → EReal)
    (Wv Wl : (⟨2, ![1024, 1024]⟩ : Shape).Idx → EReal) (b : Fin 16) (s : Fin 1024) (e : Fin 1024) : EReal :=
  if h : s.val < 576 then ∑ j : Fin 1024, vis (ix3 b (⟨s.val, h⟩ : Fin 576) j) * Wv (ix2 e j)
  else ∑ j : Fin 1024, lang (ix3 b (⟨s.val - 576, by have := s.isLt; omega⟩ : Fin 448) j) * Wl (ix2 e j)

/-- The result at batch element `b`, query `q`, output feature `f`: the attended row times `Woᵀ`, plus the bias. -/
def outAt (lo c one : EReal) (vis : (⟨3, ![16, 576, 1024]⟩ : Shape).Idx → EReal) (lang : (⟨3, ![16, 448, 1024]⟩ : Shape).Idx → EReal)
    (Wv Wl Wo : (⟨2, ![1024, 1024]⟩ : Shape).Idx → EReal) (bo : (⟨1, ![1024]⟩ : Shape).Idx → EReal)
    (b : Fin 16) (q f : Fin 1024) : EReal :=
  (∑ e : Fin 1024, attend lo c one (token vis lang Wv Wl b) q e * Wo (ix2 f e)) + bo (ix1 f)

/-- The whole result array as one function of the argument arrays. -/
def out (lo c one : EReal) (vis : (⟨3, ![16, 576, 1024]⟩ : Shape).Idx → EReal) (lang : (⟨3, ![16, 448, 1024]⟩ : Shape).Idx → EReal)
    (Wv Wl Wo : (⟨2, ![1024, 1024]⟩ : Shape).Idx → EReal) (bo : (⟨1, ![1024]⟩ : Shape).Idx → EReal) :
    (⟨3, ![16, 1024, 1024]⟩ : Shape).Idx → EReal :=
  fun i => outAt lo c one vis lang Wv Wl Wo bo (i 0) (i 1) (i 2)

theorem out_ix3 (lo c one : EReal) (vis : (⟨3, ![16, 576, 1024]⟩ : Shape).Idx → EReal) (lang : (⟨3, ![16, 448, 1024]⟩ : Shape).Idx → EReal)
    (Wv Wl Wo : (⟨2, ![1024, 1024]⟩ : Shape).Idx → EReal) (bo : (⟨1, ![1024]⟩ : Shape).Idx → EReal)
    (b : Fin 16) (q f : Fin 1024) :
    out lo c one vis lang Wv Wl Wo bo (ix3 b q f) = outAt lo c one vis lang Wv Wl Wo bo b q f := rfl

/-- The result in the other order of the arithmetic. -/
def outAtScaled (lo c : EReal) (vis : (⟨3, ![16, 576, 1024]⟩ : Shape).Idx → EReal) (lang : (⟨3, ![16, 448, 1024]⟩ : Shape).Idx → EReal)
    (Wv Wl Wo : (⟨2, ![1024, 1024]⟩ : Shape).Idx → EReal) (bo : (⟨1, ![1024]⟩ : Shape).Idx → EReal)
    (b : Fin 16) (q f : Fin 1024) : EReal :=
  (∑ e : Fin 1024, attendScaled lo c (token vis lang Wv Wl b) q e * Wo (ix2 f e)) + bo (ix1 f)

end Cert.Attn

end
-- ==== Proof.KBlockAt.lean ====
/-
  What one grid point writes back, entry by entry, in the words of the specification.

  Suppose the six blocks a grid point is given hold batch element `b`'s vision and language tokens, the three weight
  matrices transposed, and the bias as a row. Then the token matrix the body builds is the specification's token sequence of
  `b`; its scores, row maxima and weights are the specification's; and the block it writes back holds, at query `q` and
  output feature `f`, the specification's result at `(b, q, f)`.
-/
import proofs.«133942_j32298154065925_2_alg».proof.Proof.KTokens
import proofs.«133942_j32298154065925_2_alg».proof.Proof.KPayDots
import proofs.«133942_j32298154065925_2_alg».proof.Proof.KPaySoftmax
import proofs.«133942_j32298154065925_2_alg».proof.Proof.Spec

set_option maxRecDepth 16384

noncomputable section

open scoped BigOperators

namespace Cert.KernelIdeal.Blk

open Cert.KernelIdeal Cert.KernelIdeal.Gen Cert.Attn
open Idealize.ShloMosaic Idealize.ShloMosaic.ValueIdx

section

variable (x0 : Vec Ideal S1x576x1024 .bf16) (x1 : Vec Ideal S1x448x1024 .bf16) (x2 x3 x4 : Vec Ideal S1024x1024 .bf16)
  (x5 : Vec Ideal S1x1024 .f32)
  (vis : (⟨3, ![16, 576, 1024]⟩ : Shape).Idx → EReal) (lang : (⟨3, ![16, 448, 1024]⟩ : Shape).Idx → EReal)
  (Wv Wl Wo : (⟨2, ![1024, 1024]⟩ : Shape).Idx → EReal) (bo : (⟨1, ![1024]⟩ : Shape).Idx → EReal) (b : Fin 16)
  (h0 : ∀ (s : Fin 576) (j : Fin 1024), x0 (ix3 (0 : Fin 1) s j) = vis (ix3 b s j))
  (h1 : ∀ (s : Fin 448) (j : Fin 1024), x1 (ix3 (0 : Fin 1) s j) = lang (ix3 b s j))
  (h2 : ∀ j e : Fin 1024, x2 (ix2 j e) = Wv (ix2 e j))
  (h3 : ∀ j e : Fin 1024, x3 (ix2 j e) = Wl (ix2 e j))

include h0 h1 h2 h3

/-- The token matrix the body builds is batch element `b`'s token sequence. -/
theorem tokens_eq_token (s e : Fin 1024) :
    tokens (k0_pay3 (F := Ideal) x0 x2) (k0_pay4 (F := Ideal) x1 x3) (ix2 s e) = token vis lang Wv Wl b s e := by
  rw [tokens_apply]
  unfold token
  by_cases h : s.val < 576
  · rw [dif_pos h, dif_pos h, Pay.pay3_apply]
    exact Finset.sum_congr rfl fun j _ => by rw [h0, h2]
  · rw [dif_neg h, dif_neg h, Pay.pay4_apply]
    exact Finset.sum_congr rfl fun j _ => by rw [h1, h3]

/-- Its scores are the specification's. -/
theorem scores_eq_score (q k : Fin 1024) :
    scores (tokens (k0_pay3 (F := Ideal) x0 x2) (k0_pay4 (F := Ideal) x1 x3)) (ix2 q k)
      = score (token vis lang Wv Wl b) q k := by
  unfold scores score
  rw [Pay.pay5_apply]
  exact Finset.sum_congr rfl fun e _ => by
    rw [tokens_eq_token x0 x1 x2 x3 vis lang Wv Wl b h0 h1 h2 h3, tokens_eq_token x0 x1 x2 x3 vis lang Wv Wl b h0 h1 h2 h3]

/-- Its row maxima are the specification's. -/
theorem max_eq_rowMax (q : Fin 1024) (z : Fin 1) :
    k0_pay6 (F := Ideal) (scores (tokens (k0_pay3 (F := Ideal) x0 x2) (k0_pay4 (F := Ideal) x1 x3))) (ix2 q z)
      = rowMax (Ideal.ofBits .f32 0xFF800000#32) (token vis lang Wv Wl b) q := by
  rw [Pay.pay6_apply]
  unfold rowMax
  exact congrArg (fun g => Finset.fold max (Ideal.ofBits .f32 0xFF800000#32) g (Finset.univ : Finset (Fin 1024)))
    (funext fun k => scores_eq_score x0 x1 x2 x3 vis lang Wv Wl b h0 h1 h2 h3 q k)

/-- Its weights are the specification's. -/
theorem weights_eq_weight (q k : Fin 1024) :
    weights (scores (tokens (k0_pay3 (F := Ideal) x0 x2) (k0_pay4 (F := Ideal) x1 x3))) (ix2 q k)
      = weight (Ideal.ofBits .f32 0xFF800000#32) (Ideal.ofBits .f32 0x3D000000#32) (token vis lang Wv Wl b) q k := by
  unfold weights weight
  rw [Pay.pay1_apply, scores_eq_score x0 x1 x2 x3 vis lang Wv Wl b h0 h1 h2 h3,
    max_eq_rowMax x0 x1 x2 x3 vis lang Wv Wl b h0 h1 h2 h3]

/-- The block written back holds the specification's result of batch element `b`. -/
theorem block_apply (h4 : ∀ e f : Fin 1024, x4 (ix2 e f) = Wo (ix2 f e))
    (h5 : ∀ f : Fin 1024, x5 (ix2 (0 : Fin 1) f) = bo (ix1 f)) (q f : Fin 1024) :
    block (F := Ideal) x0 x1 x2 x3 x4 x5 (ix3 (0 : Fin 1) q f)
      = outAt (Ideal.ofBits .f32 0xFF800000#32) (Ideal.ofBits .f32 0x3D000000#32) (Ideal.ofBits .f32 0x3F800000#32) vis lang Wv Wl Wo bo b q f := by
  unfold block outAt
  rw [Pay.pay2_apply, h5]
  refine congrArg (fun a => a + bo (ix1 f)) (Finset.sum_congr rfl fun e _ => ?_)
  rw [h4]
  refine congrArg (fun a => a * Wo (ix2 f e)) ?_
  unfold attend
  refine congrArg₂ (fun a c => a * Ideal.div (Ideal.ofBits .f32 0x3F800000#32) c) ?_ ?_
  · exact Finset.sum_congr rfl fun k _ => by
      rw [weights_eq_weight x0 x1 x2 x3 vis lang Wv Wl b h0 h1 h2 h3, tokens_eq_token x0 x1 x2 x3 vis lang Wv Wl b h0 h1 h2 h3]
  · exact Finset.sum_congr rfl fun k _ => weights_eq_weight x0 x1 x2 x3 vis lang Wv Wl b h0 h1 h2 h3 q k

end

end Cert.KernelIdeal.Blk

end
-- ==== Proof.KEntry.lean ====
/-
  What the arrays the kernel's windows stage hold when the region is entered, read at an index, over the extended reals.

  Before its one region the kernel program converts the two token arrays and the three weight matrices to a narrower
  float format, transposes each converted weight matrix, and reshapes the bias vector to one row. Over the extended
  reals a change of float format is the identity, a transposed matrix at (j, e) is the matrix at (e, j), and a vector
  reshaped to one row reads, at (0, f), the vector at f. So each staged array is an argument array read at an index.
-/
import proofs.«133942_j32298154065925_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (c : Dev nD)

/-! ## Each staged array as the operations' term of an argument array -/

/-- The converted vision tokens. -/
theorem V_v0 : (V m c main_v0 : S16x576x1024.Idx → EReal)
    = truncf (F := Ideal) .bf16 (m ((c : Thread nD τ).loc main_arg0) : S16x576x1024.Idx → EReal) bitsLt_bf16_f32 := by
  dsimp only [Gen.V, Gen.hostOps0]
  after_results

/-- The converted language tokens. -/
theorem V_v1 : (V m c main_v1 : S16x448x1024.Idx → EReal)
    = truncf (F := Ideal) .bf16 (m ((c : Thread nD τ).loc main_arg1) : S16x448x1024.Idx → EReal) bitsLt_bf16_f32 := by
  dsimp only [Gen.V, Gen.hostOps0]
  after_results

/-- The converted and transposed vision weights. -/
theorem V_v3 : (V m c main_v3 : S1024x1024.Idx → EReal)
    = transpose S1024x1024 [1, 0]
        (truncf (F := Ideal) .bf16 (m ((c : Thread nD τ).loc main_arg2) : S1024x1024.Idx → EReal) bitsLt_bf16_f32)
        transposes_S1024x1024_S1024x1024_1_0 := by
  dsimp only [Gen.V, Gen.hostOps0]
  after_results

/-- The converted and transposed language weights. -/
theorem V_v5 : (V m c main_v5 : S1024x1024.Idx → EReal)
    = transpose S1024x1024 [1, 0]
        (truncf (F := Ideal) .bf16 (m ((c : Thread nD τ).loc main_arg3) : S1024x1024.Idx → EReal) bitsLt_bf16_f32)
        transposes_S1024x1024_S1024x1024_1_0 := by
  dsimp only [Gen.V, Gen.hostOps0]
  after_results

/-- The converted and transposed output weights. -/
theorem V_v7 : (V m c main_v7 : S1024x1024.Idx → EReal)
    = transpose S1024x1024 [1, 0]
        (truncf (F := Ideal) .bf16 (m ((c : Thread nD τ).loc main_arg4) : S1024x1024.Idx → EReal) bitsLt_bf16_f32)
        transposes_S1024x1024_S1024x1024_1_0 := by
  dsimp only [Gen.V, Gen.hostOps0]
  after_results

/-- The bias reshaped to one row. -/
theorem V_v8 : (V m c main_v8 : S1x1024.Idx → EReal)
    = shapeCast S1x1024 (m ((c : Thread nD τ).loc main_arg5) : S1024.Idx → EReal) shapeCasts_S1024_S1x1024 := by
  dsimp only [Gen.V, Gen.hostOps0]
  after_results
  rfl

/-! ## The staged arrays at an index -/

/-- The staged vision tokens at (b, s, j): the vision argument there. -/
theorem entry_v0 (b : Fin 16) (s : Fin 576) (j : Fin 1024) :
    V m c main_v0 (ix3 b s j) = m ((c : Thread nD τ).loc main_arg0) (ix3 b s j) :=
  (congrFun (V_v0 m c) (ix3 b s j)).trans (truncf_apply _ _ _)

/-- The staged language tokens at (b, s, j): the language argument there. -/
theorem entry_v1 (b : Fin 16) (s : Fin 448) (j : Fin 1024) :
    V m c main_v1 (ix3 b s j) = m ((c : Thread nD τ).loc main_arg1) (ix3 b s j) :=
  (congrFun (V_v1 m c) (ix3 b s j)).trans (truncf_apply _ _ _)

/-- The staged vision weights at (j, e): the vision weight argument at (e, j). -/
theorem entry_v3 (j e : Fin 1024) : V m c main_v3 (ix2 j e) = m ((c : Thread nD τ).loc main_arg2) (ix2 e j) :=
  (congrFun (V_v3 m c) (ix2 j e)).trans ((transpose_ix2_apply _ _ j e).trans (truncf_apply _ _ _))

/-- The staged language weights at (j, e): the language weight argument at (e, j). -/
theorem entry_v5 (j e : Fin 1024) : V m c main_v5 (ix2 j e) = m ((c : Thread nD τ).loc main_arg3) (ix2 e j) :=
  (congrFun (V_v5 m c) (ix2 j e)).trans ((transpose_ix2_apply _ _ j e).trans (truncf_apply _ _ _))

/-- The staged output weights at (e, f): the output weight argument at (f, e). -/
theorem entry_v7 (e f : Fin 1024) : V m c main_v7 (ix2 e f) = m ((c : Thread nD τ).loc main_arg4) (ix2 f e) :=
  (congrFun (V_v7 m c) (ix2 e f)).trans ((transpose_ix2_apply _ _ e f).trans (truncf_apply _ _ _))

/-- The staged bias row at (z, f): the bias argument at f. -/
theorem entry_v8 (z : Fin 1) (f : Fin 1024) : V m c main_v8 (ix2 z f) = m ((c : Thread nD τ).loc main_arg5) (ix1 f) :=
  (congrFun (V_v8 m c) (ix2 z f)).trans (shapeCast_a_1a_apply _ _ z f)

end Cert.KernelIdeal.Entry

end
-- ==== Proof.KValue.lean ====
/-
  The kernel's result array after its run, as one function of the argument arrays.

  The grid has sixteen points, one per batch element. At point `t` the vision and language windows hold batch element `t`'s
  tokens, the three weight windows and the bias window hold the whole (transposed) matrices and the bias row, and the output
  window's block is batch element `t` of the result array. So what point `t` writes back is batch element `t` of the
  specification's result; the sixteen blocks tile the result array (index `(b, q, f)` lies in point `b`'s block); hence the
  array ends holding the specification's result everywhere.
-/
import proofs.«133942_j32298154065925_2_alg».proof.Proof.Gen.KernelIdeal.Value
import proofs.«133942_j32298154065925_2_alg».proof.Proof.KBlockAt
import proofs.«133942_j32298154065925_2_alg».proof.Proof.KEntry

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array: the specification's result of the six argument arrays. -/
def result (c : Dev nD) : S16x1024x1024.Idx → EReal :=
  Cert.Attn.out (Ideal.ofBits .f32 0xFF800000#32) (Ideal.ofBits .f32 0x3D000000#32) (Ideal.ofBits .f32 0x3F800000#32) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Grid point `t` as a batch element. -/
def batch (t : Fin cfg0.N) : Fin 16 := ⟨t.val, by have h := t.isLt; have hN : cfg0.N = 16 := N_0; omega⟩

/-- The token windows and the output window move with the point along the batch axis and nowhere else. -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The weight windows and the bias window stay on their one block. -/
theorem idx_fixed : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- At point `t` the vision window holds batch element `t`'s vision tokens. -/
theorem read_vision (c : Dev nD) (t : Fin cfg0.N) (s : Fin 576) (j : Fin 1024) :
    iblk m c 0 t (ix3 (0 : Fin 1) s j) = (m ((c : Thread nD τ).loc main_arg0)) (ix3 (batch t) s j) := by
  show V m c main_v0 (((cfg0.win 0).blk t).view.emb (ix3 (0 : Fin 1) s j)) = _
  have he : ((cfg0.win 0).blk t).view.emb (ix3 (0 : Fin 1) s j) = ix3 (batch t) s j := by
    obtain ⟨e0, e1, e2, -⟩ := idx_batch t
    funext a; apply Fin.ext
    match a with
    | ⟨0, _⟩ => show win0_0.index t (0 : Fin 3) * 1 + 1 * 0 = t.val; omega
    | ⟨1, _⟩ => show win0_0.index t (1 : Fin 3) * 576 + 1 * s.val = s.val; omega
    | ⟨2, _⟩ => show win0_0.index t (2 : Fin 3) * 1024 + 1 * j.val = j.val; omega
  rw [he]
  exact Cert.KernelIdeal.Entry.entry_v0 m c (batch t) s j

/-- At point `t` the language window holds batch element `t`'s language tokens. -/
theorem read_language (c : Dev nD) (t : Fin cfg0.N) (s : Fin 448) (j : Fin 1024) :
    iblk m c 1 t (ix3 (0 : Fin 1) s j) = (m ((c : Thread nD τ).loc main_arg1)) (ix3 (batch t) s j) := by
  show V m c main_v1 (((cfg0.win 1).blk t).view.emb (ix3 (0 : Fin 1) s j)) = _
  have he : ((cfg0.win 1).blk t).view.emb (ix3 (0 : Fin 1) s j) = ix3 (batch t) s j := by
    obtain ⟨-, -, -, e0, e1, e2, -⟩ := idx_batch t
    funext a; apply Fin.ext
    match a with
    | ⟨0, _⟩ => show win0_1.index t (0 : Fin 3) * 1 + 1 * 0 = t.val; omega
    | ⟨1, _⟩ => show win0_1.index t (1 : Fin 3) * 448 + 1 * s.val = s.val; omega
    | ⟨2, _⟩ => show win0_1.index t (2 : Fin 3) * 1024 + 1 * j.val = j.val; omega
  rw [he]
  exact Cert.KernelIdeal.Entry.entry_v1 m c (batch t) s j

/-- A matrix window's one block is the whole matrix: its element `(a, b)` is the array's. -/
theorem emb_fixed2 (t : Fin cfg0.N) (a b : Fin 1024) :
    ((cfg0.win 2).blk t).view.emb (ix2 a b) = ix2 a b ∧ ((cfg0.win 3).blk t).view.emb (ix2 a b) = ix2 a b
    ∧ ((cfg0.win 4).blk t).view.emb (ix2 a b) = ix2 a b := by
  obtain ⟨e0, e1, e2, e3, e4, e5, -⟩ := idx_fixed t
  refine ⟨?_, ?_, ?_⟩
  · funext x; apply Fin.ext
    match x with
    | ⟨0, _⟩ => show win0_2.index t (0 : Fin 2) * 1024 + 1 * a.val = a.val; omega
    | ⟨1, _⟩ => show win0_2.index t (1 : Fin 2) * 1024 + 1 * b.val = b.val; omega
  · funext x; apply Fin.ext
    match x with
    | ⟨0, _⟩ => show win0_3.index t (0 : Fin 2) * 1024 + 1 * a.val = a.val; omega
    | ⟨1, _⟩ => show win0_3.index t (1 : Fin 2) * 1024 + 1 * b.val = b.val; omega
  · funext x; apply Fin.ext
    match x with
    | ⟨0, _⟩ => show win0_4.index t (0 : Fin 2) * 1024 + 1 * a.val = a.val; omega
    | ⟨1, _⟩ => show win0_4.index t (1 : Fin 2) * 1024 + 1 * b.val = b.val; omega

/-- The vision weights arrive transposed. -/
theorem read_Wv (c : Dev nD) (t : Fin cfg0.N) (j e : Fin 1024) :
    iblk m c 2 t (ix2 j e) = (m ((c : Thread nD τ).loc main_arg2)) (ix2 e j) := by
  show V m c main_v3 (((cfg0.win 2).blk t).view.emb (ix2 j e)) = _
  rw [(emb_fixed2 t j e).1]
  exact Cert.KernelIdeal.Entry.entry_v3 m c j e

/-- The language weights arrive transposed. -/
theorem read_Wl (c : Dev nD) (t : Fin cfg0.N) (j e : Fin 1024) :
    iblk m c 3 t (ix2 j e) = (m ((c : Thread nD τ).loc main_arg3)) (ix2 e j) := by
  show V m c main_v5 (((cfg0.win 3).blk t).view.emb (ix2 j e)) = _
  rw [(emb_fixed2 t j e).2.1]
  exact Cert.KernelIdeal.Entry.entry_v5 m c j e

/-- The output weights arrive transposed. -/
theorem read_Wo (c : Dev nD) (t : Fin cfg0.N) (e f : Fin 1024) :
    iblk m c 4 t (ix2 e f) = (m ((c : Thread nD τ).loc main_arg4)) (ix2 f e) := by
  show V m c main_v7 (((cfg0.win 4).blk t).view.emb (ix2 e f)) = _
  rw [(emb_fixed2 t e f).2.2]
  exact Cert.KernelIdeal.Entry.entry_v7 m c e f

/-- The bias arrives as a row. -/
theorem read_bias (c : Dev nD) (t : Fin cfg0.N) (f : Fin 1024) :
    iblk m c 5 t (ix2 (0 : Fin 1) f) = (m ((c : Thread nD τ).loc main_arg5)) (ix1 f) := by
  show V m c main_v8 (((cfg0.win 5).blk t).view.emb (ix2 (0 : Fin 1) f)) = _
  have he : ((cfg0.win 5).blk t).view.emb (ix2 (0 : Fin 1) f) = ix2 (0 : Fin 1) f := by
    obtain ⟨-, -, -, -, -, -, e0, e1⟩ := idx_fixed t
    funext x; apply Fin.ext
    match x with
    | ⟨0, _⟩ => show win0_5.index t (0 : Fin 2) * 1 + 1 * 0 = 0; omega
    | ⟨1, _⟩ => show win0_5.index t (1 : Fin 2) * 1024 + 1 * f.val = f.val; omega
  rw [he]
  exact Cert.KernelIdeal.Entry.entry_v8 m c (0 : Fin 1) f

/-- What point `t` writes back is batch element `t` of the result. -/
theorem flushed_eq (c : Dev nD) (t : Fin cfg0.N) :
    (dats m 0 c).flushed 6 t = ((cfg0.win 6).blk t).view.read (Elt Ideal) (result m c) := by
  rw [Cert.KernelIdeal.Value.flushed6_A, Cert.KernelIdeal.Blk.out_eq_block]
  funext y
  obtain ⟨z, q, f, rfl⟩ : ∃ (z : Fin 1) (q f : Fin 1024), y = ix3 z q f := ⟨y 0, y 1, y 2, eq_ix3 y⟩
  obtain rfl : z = 0 := Subsingleton.elim _ _
  show Cert.KernelIdeal.Blk.block (F := Ideal) (iblk m c 0 t) (iblk m c 1 t) (iblk m c 2 t) (iblk m c 3 t) (iblk m c 4 t) (iblk m c 5 t)
      (ix3 (0 : Fin 1) q f) = result m c (((cfg0.win 6).blk t).view.emb (ix3 (0 : Fin 1) q f))
  have he : ((cfg0.win 6).blk t).view.emb (ix3 (0 : Fin 1) q f) = ix3 (batch t) q f := by
    obtain ⟨-, -, -, -, -, -, e0, e1, e2⟩ := idx_batch t
    funext a; apply Fin.ext
    match a with
    | ⟨0, _⟩ => show win0_6.index t (0 : Fin 3) * 1 + 1 * 0 = t.val; omega
    | ⟨1, _⟩ => show win0_6.index t (1 : Fin 3) * 1024 + 1 * q.val = q.val; omega
    | ⟨2, _⟩ => show win0_6.index t (2 : Fin 3) * 1024 + 1 * f.val = f.val; omega
  rw [he]
  unfold result
  rw [Cert.Attn.out_ix3]
  exact Cert.KernelIdeal.Blk.block_apply _ _ _ _ _ _ _ _ _ _ _ _ (batch t) (read_vision m c t) (read_language m c t)
    (read_Wv m c t) (read_Wl m c t) (read_Wo m c t) (read_bias m c t) q f

/-- An index of the result array is in point `t`'s block iff each coordinate is in the block's range on its axis. -/
theorem mem_blk (t : Fin cfg0.N) (i : S16x1024x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v9).slice (win0_6.rect t)).set ↔ _
  rw [View.set_slice_whole, Rect.mem_set_unit]
  exact Iff.rfl

/-- Index `(b, q, f)` lies in the block of the point whose batch element is `b`. -/
theorem cover (i : S16x1024x1024.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  have hN : cfg0.N = 16 := N_0
  obtain ⟨t, ht⟩ : ∃ t : Fin cfg0.N, t.val = (i 0).val := ⟨⟨(i 0).val, by omega⟩, rfl⟩
  refine ⟨t, flush0_6 t, ?_⟩
  rw [mem_blk]
  obtain ⟨-, -, -, -, -, -, e0, e1, e2⟩ := idx_batch t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-- The result array after the run is the specification's result. -/
theorem final (c : Dev nD) : (dats m 0 c).arrAt 6 cfg0.N = result m c :=
  (dats m 0 c).arrAt_eq_of_cover 6 (result m c) (fun t _ => flushed_eq m c t) cover

/-- The kernel's run: it terminates with the result array at the specification's result and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KValue

end
-- ==== Proof.RefValue.lean ====
/-
  The reference program's result, read index by index, is the specification's function in the order that scales the
  scores first and divides every weight by the sum of the weights before the weighted sum (`Cert.Attn.outAtScaled`).

  The reference's operations are read one at a time at an index written by its coordinates. The two projections are
  dot products of a row of the tokens with a row of the weights; their concatenation along the sequence axis is the
  specification's `token`; the scores are the dot products of two token rows; the row maximum is the fold of `max`
  over the key axis, compared once more with the initial value; the weights, their sum, the divided weights, the
  weighted sum, the output projection and the bias follow the specification's definitions term by term.
-/
import proofs.«133942_j32298154065925_2_alg».proof.Proof.Gen.ReferenceIdeal.Read
import proofs.«133942_j32298154065925_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Attn

/-! ## The two projections -/

/-- The vision projection at (b, s, e): the dot product of vision token (b, s) with row `e` of its weight matrix. -/
theorem v0_ix3 (x0 : (⟨S16x576x1024, .f32⟩ : BufTy).Contents (Elt Ideal)) (x2 : (⟨S1024x1024, .f32⟩ : BufTy).Contents (Elt Ideal))
    (b : Fin 16) (s : Fin 576) (e : Fin 1024) :
    val_main_v0 (F := Ideal) x0 x2 (ix3 b s e) = ∑ j : Fin 1024, x0 (ix3 b s j) * x2 (ix2 e j) := by
  rw [val_main_v0_apply]
  refine Finset.sum_congr rfl fun k _ => ?_
  have hl : lidx_main_v0 (ix3 b s e) k = ix3 b s k :=
    funext fun a => Fin.ext (by match a with | ⟨0, _⟩ => rfl | ⟨1, _⟩ => rfl | ⟨2, _⟩ => rfl)
  have hr : ridx_main_v0 (ix3 b s e) k = ix2 e k :=
    funext fun a => Fin.ext (by match a with | ⟨0, _⟩ => rfl | ⟨1, _⟩ => rfl)
  rw [hl, hr]

/-- The language projection at (b, s, e): the dot product of language token (b, s) with row `e` of its weight matrix. -/
theorem v1_ix3 (x1 : (⟨S16x448x1024, .f32⟩ : BufTy).Contents (Elt Ideal)) (x3 : (⟨S1024x1024, .f32⟩ : BufTy).Contents (Elt Ideal))
    (b : Fin 16) (s : Fin 448) (e : Fin 1024) :
    val_main_v1 (F := Ideal) x1 x3 (ix3 b s e) = ∑ j : Fin 1024, x1 (ix3 b s j) * x3 (ix2 e j) := by
  rw [val_main_v1_apply]
  refine Finset.sum_congr rfl fun k _ => ?_
  have hl : lidx_main_v1 (ix3 b s e) k = ix3 b s k :=
    funext fun a => Fin.ext (by match a with | ⟨0, _⟩ => rfl | ⟨1, _⟩ => rfl | ⟨2, _⟩ => rfl)
  have hr : ridx_main_v1 (ix3 b s e) k = ix2 e k :=
    funext fun a => Fin.ext (by match a with | ⟨0, _⟩ => rfl | ⟨1, _⟩ => rfl)
  rw [hl, hr]

/-! ## The token sequence: the concatenation of the two projections along the sequence axis -/

/-- The concatenation at (b, s, e) is the specification's token: the vision projection below 576, the language
    projection, 576 rows further up, from there on. -/
theorem v2_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (s e : Fin 1024) :
    val_main_v2 (F := Ideal) x0 x1 x2 x3 (ix3 b s e) = token x0 x1 x2 x3 b s e := by
  unfold val_main_v2 token
  by_cases h : s.val < 576
  · rw [dif_pos h]
    refine (concatenate_pair_apply_left (1 : Fin S16x1024x1024.rank) (val_main_v0 (F := Ideal) x0 x2)
      (val_main_v1 (F := Ideal) x1 x3) concatenates_S16x576x1024_S16x448x1024_S16x1024x1024_d1 (ix3 b s e) rfl
      (ix3 b (⟨s.val, h⟩ : Fin 576) e) ?_).trans (v0_ix3 x0 x2 b ⟨s.val, h⟩ e)
    intro a
    match a with
    | ⟨0, _⟩ => rfl
    | ⟨1, _⟩ => rfl
    | ⟨2, _⟩ => rfl
  · rw [dif_neg h]
    have hs : s.val - 576 < 448 := by have := s.isLt; omega
    refine (concatenate_pair_apply_right (1 : Fin S16x1024x1024.rank) (val_main_v0 (F := Ideal) x0 x2)
      (val_main_v1 (F := Ideal) x1 x3) concatenates_S16x576x1024_S16x448x1024_S16x1024x1024_d1 (ix3 b s e) rfl rfl
      (ix3 b (⟨s.val - 576, hs⟩ : Fin 448) e) ?_ ?_).trans (v1_ix3 x1 x3 b ⟨s.val - 576, hs⟩ e)
    · intro a ha
      match a, ha with
      | ⟨0, _⟩, _ => rfl
      | ⟨1, _⟩, ha => exact absurd rfl ha
      | ⟨2, _⟩, _ => rfl
    · show s.val - 576 + 576 = s.val
      omega

/-! ## The scores -/

/-- The score array at (b, q, k): the dot product of token rows `q` and `k` of batch element `b`. -/
theorem v3_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q k : Fin 1024) :
    val_main_v3 (F := Ideal) x0 x1 x2 x3 (ix3 b q k) = score (token x0 x1 x2 x3 b) q k := by
  rw [val_main_v3_apply]
  unfold score
  refine Finset.sum_congr rfl fun e _ => ?_
  have hl : lidx_main_v3 (ix3 b q k) e = ix3 b q e :=
    funext fun a => Fin.ext (by match a with | ⟨0, _⟩ => rfl | ⟨1, _⟩ => rfl | ⟨2, _⟩ => rfl)
  have hr : ridx_main_v3 (ix3 b q k) e = ix3 b k e :=
    funext fun a => Fin.ext (by match a with | ⟨0, _⟩ => rfl | ⟨1, _⟩ => rfl | ⟨2, _⟩ => rfl)
  rw [hl, hr, v2_ix3, v2_ix3]

/-- The scaled score array at (b, q, k): the score times the scale's word. -/
theorem v5_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q k : Fin 1024) :
    val_main_v5 (F := Ideal) x0 x1 x2 x3 (ix3 b q k)
      = score (token x0 x1 x2 x3 b) q k * Ideal.ofBits .f32 0x3D000000#32 := by
  rw [val_main_v5_apply, val_main_v4_apply, val_main_cst_apply, Ideal.mulf_def, Ideal.ofBits_def, v3_ix3]

/-! ## The row maximum -/

/-- The source index over (b, q) with `k` put back on the key axis is (b, q, k). -/
theorem lift_ix3 (h : S16x1024x1024.Reduces [2] S16x1024) (b : Fin 16) (q : Fin 1024) (k : Fin (S16x1024x1024.size 2)) :
    h.lift (ix2 b q) k = ix3 b q (⟨k.val, k.isLt⟩ : Fin 1024) :=
  funext fun c => Fin.ext (by match c with | ⟨0, _⟩ => rfl | ⟨1, _⟩ => rfl | ⟨2, _⟩ => rfl)

/-- A maximum-reduce over the key axis, at (b, q), is the fold of `max` from the initial value's element over the
    row's entries. -/
theorem reduce_max_ix2 (y : S16x1024x1024.Idx → Ideal .f32) (init : S_.Idx → Ideal .f32) (b : Fin 16) (q : Fin 1024) :
    Host.reduce (α := Ideal .f32) FloatOps.maximumf y init reducesTo_S16x1024x1024_S16x1024_d2 h_S_ (ix2 b q)
      = (Finset.univ : Finset (Fin 1024)).fold max (init (Shape.Idx.first h_S_)) (fun k => y (ix3 b q k)) := by
  have h : S16x1024x1024.Reduces [2] S16x1024 := by decide
  rw [Host.reduce_eq_fold_single FloatOps.maximumf y init reducesTo_S16x1024x1024_S16x1024_d2 h h_S_]
  have hf : (y ∘ h.lift (ix2 b q)) = fun k : Fin 1024 => y (ix3 b q k) :=
    funext fun k => congrArg y (lift_ix3 h b q k)
  rw [hf]
  rfl

/-- The row maximum at (b, q): the fold of `max` from the initial word over the row's scaled scores. -/
theorem v6_ix2 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q : Fin 1024) :
    val_main_v6 (F := Ideal) x0 x1 x2 x3 (ix2 b q)
      = (Finset.univ : Finset (Fin 1024)).fold max (Ideal.ofBits .f32 0xFF800000#32)
          (fun k => score (token x0 x1 x2 x3 b) q k * Ideal.ofBits .f32 0x3D000000#32) := by
  unfold val_main_v6
  rw [reduce_max_ix2, val_main_cst_0_apply, Ideal.ofBits_def]
  exact congrArg (fun f => Finset.fold max (Ideal.ofBits .f32 0xFF800000#32) f (Finset.univ : Finset (Fin 1024)))
    (funext fun k => v5_ix3 x0 x1 x2 x3 b q k)

/-- The row maximum compared once more with the initial word, at (b, q): the specification's largest scaled score. -/
theorem v8_ix2 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q : Fin 1024) :
    val_main_v8 (F := Ideal) x0 x1 x2 x3 (ix2 b q)
      = rowMaxScaled (Ideal.ofBits .f32 0xFF800000#32) (Ideal.ofBits .f32 0x3D000000#32) (token x0 x1 x2 x3 b) q := by
  rw [val_main_v8_apply, val_main_v7_apply, val_main_cst_1_apply, v6_ix2, Ideal.maximumf_def, Ideal.ofBits_def]
  rfl

/-- The largest scaled score broadcast along the key axis, at (b, q, k). -/
theorem v10_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q k : Fin 1024) :
    val_main_v10 (F := Ideal) x0 x1 x2 x3 (ix3 b q k)
      = rowMaxScaled (Ideal.ofBits .f32 0xFF800000#32) (Ideal.ofBits .f32 0x3D000000#32) (token x0 x1 x2 x3 b) q := by
  rw [val_main_v10_apply, val_main_v9_apply]
  have hi : idx_main_v9 (idx_main_v10 (ix3 b q k)) = ix2 b q :=
    funext fun a => Fin.ext (by match a with | ⟨0, _⟩ => rfl | ⟨1, _⟩ => rfl)
  rw [hi, v8_ix2]

/-! ## The weights -/

/-- The weight array at (b, q, k): the exponential of the scaled score less the largest scaled score. -/
theorem v12_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q k : Fin 1024) :
    val_main_v12 (F := Ideal) x0 x1 x2 x3 (ix3 b q k)
      = weightScaled (Ideal.ofBits .f32 0xFF800000#32) (Ideal.ofBits .f32 0x3D000000#32) (token x0 x1 x2 x3 b) q k := by
  rw [val_main_v12_apply, val_main_v11_apply, v5_ix3, v10_ix3, Ideal.hostUnary_exp_def, Ideal.subf_def]
  rfl

/-- The sum of a row's weights, at (b, q): the zero initial word adds nothing. -/
theorem v13_ix2 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q : Fin 1024) :
    val_main_v13 (F := Ideal) x0 x1 x2 x3 (ix2 b q)
      = ∑ k : Fin 1024, weightScaled (Ideal.ofBits .f32 0xFF800000#32) (Ideal.ofBits .f32 0x3D000000#32) (token x0 x1 x2 x3 b) q k := by
  rw [val_main_v13_apply, val_main_cst_2_apply, Ideal.ofBits_def, Ideal.ofBits_zero_f32, zero_add]
  refine Finset.sum_congr rfl fun k _ => ?_
  have hi : idx_main_v13 (ix2 b q) k = ix3 b q k :=
    funext fun a => Fin.ext (by match a with | ⟨0, _⟩ => rfl | ⟨1, _⟩ => rfl | ⟨2, _⟩ => rfl)
  rw [hi, v12_ix3]

/-- The sum of a row's weights broadcast along the key axis, at (b, q, k). -/
theorem v15_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q k : Fin 1024) :
    val_main_v15 (F := Ideal) x0 x1 x2 x3 (ix3 b q k)
      = ∑ k' : Fin 1024, weightScaled (Ideal.ofBits .f32 0xFF800000#32) (Ideal.ofBits .f32 0x3D000000#32) (token x0 x1 x2 x3 b) q k' := by
  rw [val_main_v15_apply, val_main_v14_apply]
  have hi : idx_main_v14 (idx_main_v15 (ix3 b q k)) = ix2 b q :=
    funext fun a => Fin.ext (by match a with | ⟨0, _⟩ => rfl | ⟨1, _⟩ => rfl)
  rw [hi, v13_ix2]

/-- The divided weight at (b, q, k): the weight over the sum of the row's weights. -/
theorem v16_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q k : Fin 1024) :
    val_main_v16 (F := Ideal) x0 x1 x2 x3 (ix3 b q k)
      = Ideal.div (weightScaled (Ideal.ofBits .f32 0xFF800000#32) (Ideal.ofBits .f32 0x3D000000#32) (token x0 x1 x2 x3 b) q k)
          (∑ k' : Fin 1024, weightScaled (Ideal.ofBits .f32 0xFF800000#32) (Ideal.ofBits .f32 0x3D000000#32) (token x0 x1 x2 x3 b) q k') := by
  rw [val_main_v16_apply, v12_ix3, v15_ix3, Ideal.hostDivf_def]

/-! ## The attended row, the output projection and the bias -/

/-- The attended array at (b, q, e): the sum over the keys of the divided weight times the key's token entry. -/
theorem v17_ix3 (x0 : (⟨S16x576x1024, .f32⟩ : BufTy).Contents (Elt Ideal)) (x1 : (⟨S16x448x1024, .f32⟩ : BufTy).Contents (Elt Ideal))
    (x2 x3 : (⟨S1024x1024, .f32⟩ : BufTy).Contents (Elt Ideal)) (b : Fin 16) (q e : Fin 1024) :
    val_main_v17 (F := Ideal) x0 x1 x2 x3 (ix3 b q e)
      = attendScaled (Ideal.ofBits .f32 0xFF800000#32) (Ideal.ofBits .f32 0x3D000000#32) (token x0 x1 x2 x3 b) q e := by
  rw [val_main_v17_apply]
  unfold attendScaled
  refine Finset.sum_congr rfl fun k _ => ?_
  have hl : lidx_main_v17 (ix3 b q e) k = ix3 b q k :=
    funext fun a => Fin.ext (by match a with | ⟨0, _⟩ => rfl | ⟨1, _⟩ => rfl | ⟨2, _⟩ => rfl)
  have hr : ridx_main_v17 (ix3 b q e) k = ix3 b k e :=
    funext fun a => Fin.ext (by match a with | ⟨0, _⟩ => rfl | ⟨1, _⟩ => rfl | ⟨2, _⟩ => rfl)
  rw [hl, hr, v16_ix3, v2_ix3]

/-- The projected array at (b, q, f): the attended row times row `f` of the output weight matrix. -/
theorem v18_ix3 (x0 : (⟨S16x576x1024, .f32⟩ : BufTy).Contents (Elt Ideal)) (x1 : (⟨S16x448x1024, .f32⟩ : BufTy).Contents (Elt Ideal))
    (x2 x3 x4 : (⟨S1024x1024, .f32⟩ : BufTy).Contents (Elt Ideal)) (b : Fin 16) (q f : Fin 1024) :
    val_main_v18 (F := Ideal) x0 x1 x2 x3 x4 (ix3 b q f)
      = ∑ e : Fin 1024, attendScaled (Ideal.ofBits .f32 0xFF800000#32) (Ideal.ofBits .f32 0x3D000000#32) (token x0 x1 x2 x3 b) q e
          * x4 (ix2 f e) := by
  rw [val_main_v18_apply]
  refine Finset.sum_congr rfl fun e _ => ?_
  have hl : lidx_main_v18 (ix3 b q f) e = ix3 b q e :=
    funext fun a => Fin.ext (by match a with | ⟨0, _⟩ => rfl | ⟨1, _⟩ => rfl | ⟨2, _⟩ => rfl)
  have hr : ridx_main_v18 (ix3 b q f) e = ix2 f e :=
    funext fun a => Fin.ext (by match a with | ⟨0, _⟩ => rfl | ⟨1, _⟩ => rfl)
  rw [hl, hr, v17_ix3]

/-- The broadcast bias at (b, q, f): the bias at `f`. -/
theorem v20_ix3 (x5 : (⟨S1024, .f32⟩ : BufTy).Contents (Elt Ideal)) (b : Fin 16) (q f : Fin 1024) :
    val_main_v20 (F := Ideal) x5 (ix3 b q f) = x5 (ix1 f) := by
  rw [val_main_v20_apply, val_main_v19_apply]
  have hi : idx_main_v19 (idx_main_v20 (ix3 b q f)) = ix1 f :=
    funext fun a => Fin.ext (by match a with | ⟨0, _⟩ => rfl)
  rw [hi]

/-! ## The result -/

/-- The reference's result at (b, q, f) is the specification's result in the scaled-first order. -/
theorem ref_out_ix3 (x0 : (⟨S16x576x1024, .f32⟩ : BufTy).Contents (Elt Ideal)) (x1 : (⟨S16x448x1024, .f32⟩ : BufTy).Contents (Elt Ideal))
    (x2 x3 x4 : (⟨S1024x1024, .f32⟩ : BufTy).Contents (Elt Ideal)) (x5 : (⟨S1024, .f32⟩ : BufTy).Contents (Elt Ideal))
    (b : Fin 16) (q f : Fin 1024) :
    val_main_v21 (F := Ideal) x0 x1 x2 x3 x4 x5 (ix3 b q f)
      = outAtScaled (Ideal.ofBits .f32 0xFF800000#32) (Ideal.ofBits .f32 0x3D000000#32) x0 x1 x2 x3 x4 x5 b q f := by
  rw [val_main_v21_apply, v18_ix3, v20_ix3, Ideal.addf_def]
  rfl

/-- The reference's result array is the specification's result in the scaled-first order, read at every index. -/
theorem ref_out (x0 : (⟨S16x576x1024, .f32⟩ : BufTy).Contents (Elt Ideal)) (x1 : (⟨S16x448x1024, .f32⟩ : BufTy).Contents (Elt Ideal))
    (x2 x3 x4 : (⟨S1024x1024, .f32⟩ : BufTy).Contents (Elt Ideal)) (x5 : (⟨S1024, .f32⟩ : BufTy).Contents (Elt Ideal)) :
    Cert.ReferenceIdeal.Read.val_main_v21 (F := Ideal) x0 x1 x2 x3 x4 x5
      = fun i => Cert.Attn.outAtScaled (Ideal.ofBits .f32 0xFF800000#32) (Ideal.ofBits .f32 0x3D000000#32) x0 x1 x2 x3 x4 x5
          (i 0) (i 1) (i 2) := by
  funext i
  obtain ⟨b, q, f, rfl⟩ : ∃ (b : Fin 16) (q f : Fin 1024), i = ix3 b q f := ⟨i 0, i 1, i 2, eq_ix3 i⟩
  exact ref_out_ix3 x0 x1 x2 x3 x4 x5 b q f

end Cert.ReferenceIdeal.RefValue

end
-- ==== Proof.Algebra.lean ====
/-
  The two orders of the attention arithmetic agree on real tokens.

  When every token coordinate is a real number, every score is a real number, the largest score of a row over a nonempty
  index set is a real number that bounds the row's scores and is one of them, and for a positive scale the largest scaled
  score is the scaled largest score. Both orders then give each key the same real weight, the exponential of
  (score - largest score) * scale; the sum of the weights is a positive real, so dividing by it is multiplying by its real
  reciprocal, and a common real factor moves across a finite sum of reals.
-/
import proofs.«133942_j32298154065925_2_alg».proof.Proof.Spec

noncomputable section

open scoped BigOperators

namespace Cert.Attn

open Idealize.ShloMosaic Idealize.ShloMosaic.ValueIdx

variable {n d : ℕ}

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of reals is a real. -/
theorem sum_mul_real {ι : Type*} (s : Finset ι) (f g : ι → EReal)
    (hf : ∀ i, ∃ r : ℝ, f i = (r : EReal)) (hg : ∀ i, ∃ r : ℝ, g i = (r : EReal)) :
    ∃ r : ℝ, ∑ i ∈ s, f i * g i = (r : EReal) := by
  choose a ha using hf
  choose b hb using hg
  refine ⟨∑ i ∈ s, a i * b i, ?_⟩
  rw [coe_sum]
  refine Finset.sum_congr rfl (fun i _ => ?_)
  rw [ha i, hb i, EReal.coe_mul]

/-- The largest of finitely many reals over a nonempty index set bounds them all and is one of them. -/
theorem exists_max_attained (hn : 0 < n) (s : Fin n → ℝ) : ∃ m : ℝ, (∀ k, s k ≤ m) ∧ ∃ k, s k = m := by
  haveI : Nonempty (Fin n) := ⟨⟨0, hn⟩⟩
  obtain ⟨k, _, hk⟩ := Finset.exists_max_image Finset.univ s Finset.univ_nonempty
  exact ⟨s k, fun j => hk j (Finset.mem_univ j), k, rfl⟩

/-- The fold of max from the bottom over reals is the real that bounds them all and is one of them. -/
theorem fold_max_coe_eq (s : Fin n → ℝ) (m : ℝ) (hle : ∀ k, s k ≤ m) (hat : ∃ k, s k = m) :
    (Finset.univ : Finset (Fin n)).fold max ⊥ (fun k => ((s k : ℝ) : EReal)) = (m : EReal) := by
  apply le_antisymm
  · rw [Finset.fold_max_le]
    exact ⟨bot_le, fun k _ => EReal.coe_le_coe_iff.mpr (hle k)⟩
  · rw [Finset.le_fold_max]
    obtain ⟨k, hk⟩ := hat
    exact Or.inr ⟨k, Finset.mem_univ k, by rw [hk]⟩

/-- The score of real rows is the real dot product. -/
theorem score_coe (x : Fin n → Fin d → ℝ) (q k : Fin n) :
    score (fun a b => ((x a b : ℝ) : EReal)) q k = ((∑ e, x q e * x k e : ℝ) : EReal) := by
  unfold score
  rw [coe_sum]
  refine Finset.sum_congr rfl (fun e _ => ?_)
  rw [EReal.coe_mul]

/-- Over the reals: a common factor moves across a finite sum. -/
theorem real_core (w : Fin n → ℝ) (y : Fin n → ℝ) (L : ℝ) :
    ∑ k, w k * (1 / L) * y k = (∑ k, w k * y k) * (1 / L) := by
  rw [Finset.sum_mul]
  refine Finset.sum_congr rfl (fun k _ => ?_)
  ring

/-- On real tokens and a positive real scale, the attended row is the same in the two orders of the arithmetic. -/
theorem attendScaled_eq_attend {n d : ℕ} (hn : 0 < n) (X : Fin n → Fin d → EReal)
    (hX : ∀ q e, ∃ r : ℝ, X q e = (r : EReal)) (cr : ℝ) (hc : 0 < cr) (q : Fin n) (e : Fin d) :
    attendScaled ⊥ (cr : EReal) X q e = attend ⊥ (cr : EReal) 1 X q e := by
  choose x hx using hX
  obtain rfl : X = fun a b => ((x a b : ℝ) : EReal) := funext (fun a => funext (fun b => hx a b))
  -- the real scores of row q, and their largest
  obtain ⟨m, hle, hat⟩ := exists_max_attained hn (fun k => ∑ e, x q e * x k e)
  have hmax : rowMax ⊥ (fun a b => ((x a b : ℝ) : EReal)) q = (m : EReal) := by
    unfold rowMax
    simp only [score_coe]
    exact fold_max_coe_eq _ m hle hat
  -- the largest scaled score is the scaled largest score
  have hmaxS : rowMaxScaled ⊥ (cr : EReal) (fun a b => ((x a b : ℝ) : EReal)) q = ((m * cr : ℝ) : EReal) := by
    unfold rowMaxScaled
    simp only [score_coe, ← EReal.coe_mul]
    rw [fold_max_coe_eq (fun k => (∑ e, x q e * x k e) * cr) (m * cr)
      (fun k => mul_le_mul_of_nonneg_right (hle k) hc.le)
      (by obtain ⟨k, hk⟩ := hat; exact ⟨k, by rw [hk]⟩)]
    exact max_eq_right bot_le
  -- both orders give key k the same real weight
  have hw : ∀ k, weight ⊥ (cr : EReal) (fun a b => ((x a b : ℝ) : EReal)) q k
      = ((Real.exp (((∑ e, x q e * x k e) - m) * cr) : ℝ) : EReal) := by
    intro k
    unfold weight
    rw [hmax, score_coe, ← EReal.coe_sub, ← EReal.coe_mul, Ideal.exp_coe]
  have hwS : ∀ k, weightScaled ⊥ (cr : EReal) (fun a b => ((x a b : ℝ) : EReal)) q k
      = ((Real.exp (((∑ e, x q e * x k e) - m) * cr) : ℝ) : EReal) := by
    intro k
    unfold weightScaled
    rw [hmaxS, score_coe, ← EReal.coe_mul, ← EReal.coe_sub, Ideal.exp_coe, sub_mul]
  -- the sum of the weights is a positive real
  have hLpos : 0 < ∑ k, Real.exp (((∑ e, x q e * x k e) - m) * cr) := by
    haveI : Nonempty (Fin n) := ⟨⟨0, hn⟩⟩
    exact Finset.sum_pos (fun k _ => Real.exp_pos _) Finset.univ_nonempty
  have hL : (∑ k, Real.exp (((∑ e, x q e * x k e) - m) * cr)) ≠ 0 := hLpos.ne'
  have hsum : (∑ k, ((Real.exp (((∑ e, x q e * x k e) - m) * cr) : ℝ) : EReal))
      = ((∑ k, Real.exp (((∑ e, x q e * x k e) - m) * cr) : ℝ) : EReal) := (coe_sum _ _).symm
  unfold attendScaled attend
  simp only [hw, hwS, hsum, Ideal.div_coe hL, one_mul]
  simp only [← EReal.coe_mul, ← coe_sum]
  congr 1
  exact real_core _ _ _

/-- Every token coordinate of real argument arrays is a real: a finite sum of products of reals. -/
theorem token_real (vis : (⟨3, ![16, 576, 1024]⟩ : Shape).Idx → EReal) (lang : (⟨3, ![16, 448, 1024]⟩ : Shape).Idx → EReal)
    (Wv Wl : (⟨2, ![1024, 1024]⟩ : Shape).Idx → EReal)
    (hvis : ∀ i, ∃ r : ℝ, vis i = (r : EReal)) (hlang : ∀ i, ∃ r : ℝ, lang i = (r : EReal))
    (hWv : ∀ i, ∃ r : ℝ, Wv i = (r : EReal)) (hWl : ∀ i, ∃ r : ℝ, Wl i = (r : EReal))
    (b : Fin 16) (s e : Fin 1024) : ∃ r : ℝ, token vis lang Wv Wl b s e = (r : EReal) := by
  unfold token
  split
  · exact sum_mul_real _ _ _ (fun j => hvis _) (fun j => hWv _)
  · exact sum_mul_real _ _ _ (fun j => hlang _) (fun j => hWl _)

/-- On real vision, language and projection arrays and a positive real scale the two orders give the same result: the
    attended rows agree coordinate by coordinate, and the last sum and the bias are the same on both sides. -/
theorem outAtScaled_eq_outAt (vis : (⟨3, ![16, 576, 1024]⟩ : Shape).Idx → EReal) (lang : (⟨3, ![16, 448, 1024]⟩ : Shape).Idx → EReal)
    (Wv Wl Wo : (⟨2, ![1024, 1024]⟩ : Shape).Idx → EReal) (bo : (⟨1, ![1024]⟩ : Shape).Idx → EReal)
    (hvis : ∀ i, ∃ r : ℝ, vis i = (r : EReal)) (hlang : ∀ i, ∃ r : ℝ, lang i = (r : EReal))
    (hWv : ∀ i, ∃ r : ℝ, Wv i = (r : EReal)) (hWl : ∀ i, ∃ r : ℝ, Wl i = (r : EReal))
    (cr : ℝ) (hc : 0 < cr) (b : Fin 16) (q f : Fin 1024) :
    outAtScaled ⊥ (cr : EReal) vis lang Wv Wl Wo bo b q f = outAt ⊥ (cr : EReal) 1 vis lang Wv Wl Wo bo b q f := by
  unfold outAtScaled outAt
  congr 1
  refine Finset.sum_congr rfl (fun e _ => ?_)
  rw [attendScaled_eq_attend (by norm_num) (token vis lang Wv Wl b)
    (fun s e => token_real vis lang Wv Wl hvis hlang hWv hWl b s e) cr hc q e]

end Cert.Attn

end
-- ==== Proof.Finite.lean ====
/-
  From the precondition to "every entry is a real", for the four arrays the algebra needs.

  The precondition is one bit. For each of the six argument arrays every entry's absolute value is compared, strictly
  below, with `+∞`; the comparisons of one array are folded by `and` over all its axes; the six folds are and-ed
  together. If that one bit is 1 then each fold is 1, so each comparison is 1, so each entry `x` has `max x (-x) < ⊤` in
  the extended reals. Neither `⊥` (whose negation is `⊤`) nor `⊤` satisfies that, so `x` is a real.
-/
import proofs.«133942_j32298154065925_2_alg».proof.Defs
import Idealize.ShloMosaic.Lib.ReduceAll

noncomputable section

namespace Cert.Finite

open Idealize.ShloMosaic Idealize.SL.Sem

/-- The word `7F800000` (sign clear, exponent all ones, fraction zero) denotes `+∞`. -/
theorem posInf : Ideal.ofBits .f32 0x7F800000#32 = (⊤ : EReal) := by
  simp [Ideal.ofBits, Ideal.ieee]

/-- An extended real whose absolute value `max x (-x)` is strictly below `+∞` is a real. -/
theorem real_of_abs_lt (x : EReal)
    (h : Ideal.cmp .olt (max x (-x)) (Ideal.ofBits .f32 0x7F800000#32) = 1#1) : ∃ r : ℝ, x = (r : EReal) := by
  rw [posInf] at h
  induction x using EReal.rec with
  | bot => simp [Ideal.cmp] at h
  | coe r => exact ⟨r, rfl⟩
  | top => simp [Ideal.cmp] at h

/-- The shape of rank zero has one index. -/
instance : Subsingleton Cert.Pre_finite_inputs.S_.Idx := ⟨fun a b => funext fun d => d.elim0⟩

/-- One array: if the fold by `and`, over all axes, of "the entry's absolute value is below `+∞`" is 1, every entry is a real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf a) (broadcastInDim s ![] hb (constant Cert.Pre_finite_inputs.S_ .f32 0x7F800000#32)))
        init hr hu j = 1#1) :
    ∀ i, ∃ r : ℝ, a i = (r : EReal) := fun i =>
  real_of_abs_lt (a i) (Host.reduce_andi_all _ init hr hu j e i)

/-- The predicate over six arbitrary arrays: if it is all ones, the first four arrays hold reals only. -/
theorem real_of_fn [hP : Cert.Pre_finite_inputs.Facts]
    (a0 : FVec Ideal Cert.Pre_finite_inputs.S16x576x1024 .f32) (a1 : FVec Ideal Cert.Pre_finite_inputs.S16x448x1024 .f32)
    (a2 a3 a4 : FVec Ideal Cert.Pre_finite_inputs.S1024x1024 .f32) (a5 : FVec Ideal Cert.Pre_finite_inputs.S1024 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h (fun d => d.elim0)
  dsimp only [Cert.Pre_finite_inputs.fn, Cert.Pre_finite_inputs.fn_part1, andi] at h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2, real_of_all a3 _ _ _ _ _ e3⟩

/-- The precondition of the idealized kernel, read at one device: the first four argument arrays hold reals only. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) :=
  real_of_fn _ _ _ _ _ _ (h c)

end Cert.Finite

end
-- ==== Proof.Consts.lean ====
/-
  The three single-precision words the two programs spell, as the extended reals they denote.

  A single-precision word is a sign bit, eight exponent bits (bias 127) and twenty-three fraction bits. The word
  `FF800000` has the sign set, the exponent all ones and the fraction zero: it denotes `-∞`, the bottom of the
  extended reals. The word `3D000000` has exponent `122` and fraction zero: it denotes `2^23 · 2^(122 - 127 - 23) = 2^(-5) = 1/32`.
  The word `3F800000` has exponent `127` and fraction zero: it denotes `2^23 · 2^(127 - 127 - 23) = 1`.
-/
import Idealize.ShloMosaic.PureOps.Ideal
import Idealize.ShloMosaic.PureOps.Ideal.Laws

noncomputable section

namespace Cert.Consts

open Idealize.ShloMosaic

/-- Sign set, exponent all ones, fraction zero: `-∞`. -/
theorem negInf : Ideal.ofBits .f32 0xFF800000#32 = (⊥ : EReal) := by
  simp [Ideal.ofBits, Ideal.ieee]

/-- Exponent `122`, fraction zero: `2^23 · 2^(-28) = 1/32`. -/
theorem scale : Ideal.ofBits .f32 0x3D000000#32 = ((1 / 32 : ℝ) : EReal) := by
  simp [Ideal.ofBits, Ideal.ieee, -EReal.coe_mul]
  norm_num

/-- Exponent `127`, fraction zero: `2^23 · 2^(-23) = 1`. -/
theorem one : Ideal.ofBits .f32 0x3F800000#32 = (1 : EReal) := by
  simp [Ideal.ofBits, Ideal.ieee, -EReal.coe_mul]
  norm_num

end Cert.Consts

end
-- ==== Proof.Join.lean ====
/-
  The reference's result is the specification's result of the kernel's arguments.

  The reference computes the attention in the other order of the arithmetic: scores scaled first, every weight divided by the
  sum of the weights before the weighted sum. Its two float words denote `-∞` and `1/32`, and the kernel's third word
  denotes `1`. Under the precondition the vision and language tokens and their two weight matrices hold reals only, so the
  token sequence is real and the two orders agree: for the positive scale `1/32` the largest scaled score is the scaled
  largest score, and the common factor `1/Σ` moves across the finite weighted sum. The output weights and the bias enter
  both sides in the same way and need no finiteness.
-/
import proofs.«133942_j32298154065925_2_alg».proof.Defs
import proofs.«133942_j32298154065925_2_alg».proof.Proof.Gen.ReferenceIdeal.Read
import proofs.«133942_j32298154065925_2_alg».proof.Proof.RefValue
import proofs.«133942_j32298154065925_2_alg».proof.Proof.Algebra
import proofs.«133942_j32298154065925_2_alg».proof.Proof.Finite
import proofs.«133942_j32298154065925_2_alg».proof.Proof.Consts

noncomputable section

namespace Cert.Join

open Idealize.ShloMosaic Idealize.SL.Sem

theorem ref_is_result [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v21 m' c
      = Cert.Attn.out (Ideal.ofBits .f32 0xFF800000#32) (Ideal.ofBits .f32 0x3D000000#32) (Ideal.ofBits .f32 0x3F800000#32)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) := by
  obtain ⟨a0, a1, a2, a3, a4, a5⟩ := hag
  obtain ⟨f0, f1, f2, f3⟩ := Cert.Finite.real_of_pre m hpre c
  rw [Cert.ReferenceIdeal.Read.val_main_v21_eq, a0, a1, a2, a3, a4, a5, Cert.ReferenceIdeal.RefValue.ref_out]
  funext i
  unfold Cert.Attn.out
  rw [Cert.Consts.negInf, Cert.Consts.scale, Cert.Consts.one]
  exact Cert.Attn.outAtScaled_eq_outAt _ _ _ _ _ _ f0 f1 f2 f3 (1 / 32) (by norm_num) (i 0) (i 1) (i 2)

end Cert.Join

end
-- ==== Proof.lean ====
/-
  A single-head attention kernel over concatenated vision and language tokens, against its reference.

  Per batch element both programs project 576 vision tokens and 448 language tokens, stack them into one sequence of 1024
  tokens, attend every token to every token with the scores scaled by `1/32`, and project the attended rows with a bias.
  The kernel subtracts each row's largest raw score before scaling and divides by the sum of the weights after the weighted
  sum of the tokens; the reference scales first and normalises every weight before that sum. Over the extended reals the
  two are one function of the arguments wherever the tokens and their two weight matrices are finite, which the
  precondition gives.

  The three frames: the kernel at either reading runs, faults nowhere and leaves its arguments alone (its run, generated);
  the reference likewise (its run with the result dropped). Nothing was rewritten between the kernel's two readings, so
  there is nothing to preserve. For the value claim the kernel's result array is the specification's result of the argument
  arrays — each of the sixteen grid points writes back one batch element of it, and the sixteen blocks tile the array — and
  so is the reference's.
-/
import proofs.«133942_j32298154065925_2_alg».proof.Defs
import proofs.«133942_j32298154065925_2_alg».proof.Proof.Gen.Kernel
import proofs.«133942_j32298154065925_2_alg».proof.Proof.Gen.Kernel.Skeleton
import proofs.«133942_j32298154065925_2_alg».proof.Proof.Gen.Kernel.Launch
import proofs.«133942_j32298154065925_2_alg».proof.Proof.Gen.Kernel.Points
import proofs.«133942_j32298154065925_2_alg».proof.Proof.Gen.Kernel.Frame
import proofs.«133942_j32298154065925_2_alg».proof.Proof.Gen.KernelIdeal
import proofs.«133942_j32298154065925_2_alg».proof.Proof.Gen.KernelIdeal.Skeleton
import proofs.«133942_j32298154065925_2_alg».proof.Proof.Gen.KernelIdeal.Launch
import proofs.«133942_j32298154065925_2_alg».proof.Proof.Gen.KernelIdeal.Points
import proofs.«133942_j32298154065925_2_alg».proof.Proof.Gen.KernelIdeal.Frame
import proofs.«133942_j32298154065925_2_alg».proof.Proof.Gen.ReferenceIdeal
import proofs.«133942_j32298154065925_2_alg».proof.Proof.Gen.Pre_finite_inputs
import proofs.«133942_j32298154065925_2_alg».proof.Proof.Gen.KernelIdeal.Value
import proofs.«133942_j32298154065925_2_alg».proof.Proof.Gen.ReferenceIdeal.Run
import proofs.«133942_j32298154065925_2_alg».proof.Proof.Gen.ReferenceIdeal.Read
import proofs.«133942_j32298154065925_2_alg».proof.Proof.KValue
import proofs.«133942_j32298154065925_2_alg».proof.Proof.Join
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read over the extended reals runs and leaves its arguments unchanged. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel's two readings. -/
theorem preserves : Cert.preserves_Kernel_KernelIdeal := trivial

/-- Both programs end with the specification's result of the kernel's argument arrays. -/
theorem algebraic : Cert.algebraic_KernelIdeal_ReferenceIdeal := by
  intro m ρ m' ρ' hpre hagree
  refine ⟨fun c => Cert.KernelIdeal.KValue.result m c, Cert.KernelIdeal.KValue.run m ρ, ?_⟩
  exact (θ_run Cert.ReferenceIdeal.defs _ _).mono
    (fun _ h c => ⟨(h c).1.trans (Cert.Join.ref_is_result m m' hpre c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
